-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.sign_bit.Statement Cert.KernelIdeal.S24x128x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x192x128x128 : Shape := ⟨4, ![8, 192, 128, 128]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S_ : Shape := ⟨0, ![]⟩

class Facts : Prop where
  bcast_S_S8x192x128x128 : S_.BroadcastsInDim S8x192x128x128 (![] : Fin 0 → Fin S8x192x128x128.rank)
  reducesTo_S8x192x128x128_S_d0_1_2_3 : S8x192x128x128.ReducesTo [0, 1, 2, 3] S_
  h_S_ : 0 < S_.numel
  bcast_S_S192x3x1 : S_.BroadcastsInDim S192x3x1 (![] : Fin 0 → Fin S192x3x1.rank)
  reducesTo_S192x3x1_S_d0_1_2 : S192x3x1.ReducesTo [0, 1, 2] S_
  bcast_S_S192x3x3 : S_.BroadcastsInDim S192x3x3 (![] : Fin 0 → Fin S192x3x3.rank)
  reducesTo_S192x3x3_S_d0_1_2 : S192x3x3.ReducesTo [0, 1, 2] S_
  bcast_S_S192x1x3 : S_.BroadcastsInDim S192x1x3 (![] : Fin 0 → Fin S192x1x3.rank)
  reducesTo_S192x1x3_S_d0_1_2 : S192x1x3.ReducesTo [0, 1, 2] S_
  bcast_S_S192x1x1 : S_.BroadcastsInDim S192x1x1 (![] : Fin 0 → Fin S192x1x1.rank)
  reducesTo_S192x1x1_S_d0_1_2 : S192x1x1.ReducesTo [0, 1, 2] S_

variable [Facts]

def fn_part3 {F : FTy → Type} [FloatOps F] (main_arg11 : FVec F S192x1x1 .f32) (main_arg12 : FVec F S192x1x3 .f32) (main_v48 : IVec S_ 1) (main_v49 : FVec F S192x1x3 .f32) (main_v50 : FVec F S192x1x3 .f32) : IVec S_ 1 :=
  let main_v51 : IVec S192x1x3 1 := cmpf .olt main_v49 main_v50
  let main_c_19 : IVec S_ 1 := constantI S_ 1 1#1
  let main_v52 : IVec S_ 1 := (fun x v => Host.reduce IntOp.andi x v reducesTo_S192x1x3_S_d0_1_2 h_S_) main_v51 main_c_19
  let main_v53 : IVec S_ 1 := andi main_v48 main_v52
  let main_v54 : FVec F S192x1x1 .f32 := Host.absf main_arg11
  let main_cst_20 : FVec F S_ .f32 := constant S_ .f32 0x7F800000#32
  let main_v55 : FVec F S192x1x1 .f32 := broadcastInDim S192x1x1 ![] bcast_S_S192x1x1 main_cst_20
  let main_v56 : IVec S192x1x1 1 := cmpf .olt main_v54 main_v55
  let main_c_21 : IVec S_ 1 := constantI S_ 1 1#1
  let main_v57 : IVec S_ 1 := (fun x v => Host.reduce IntOp.andi x v reducesTo_S192x1x1_S_d0_1_2 h_S_) main_v56 main_c_21
  let main_v58 : IVec S_ 1 := andi main_v53 main_v57
  let main_v59 : FVec F S192x1x3 .f32 := Host.absf main_arg12
  let main_cst_22 : FVec F S_ .f32 := constant S_ .f32 0x7F800000#32
  let main_v60 : FVec F S192x1x3 .f32 := broadcastInDim S192x1x3 ![] bcast_S_S192x1x3 main_cst_22
  let main_v61 : IVec S192x1x3 1 := cmpf .olt main_v59 main_v60
  let main_c_23 : IVec S_ 1 := constantI S_ 1 1#1
  let main_v62 : IVec S_ 1 := (fun x v => Host.reduce IntOp.andi x v reducesTo_S192x1x3_S_d0_1_2 h_S_) main_v61 main_c_23
  let main_v63 : IVec S_ 1 := andi main_v58 main_v62
  main_v63

def fn_part2 {F : FTy → Type} [FloatOps F] (main_arg7 : FVec F S192x3x3 .f32) (main_arg8 : FVec F S192x3x1 .f32) (main_arg9 : FVec F S192x3x1 .f32) (main_arg10 : FVec F S192x1x3 .f32) (main_arg11 : FVec F S192x1x1 .f32) (main_arg12 : FVec F S192x1x3 .f32) (main_v33 : IVec S_ 1) : IVec S_ 1 :=
  let main_v34 : FVec F S192x3x3 .f32 := Host.absf main_arg7
  let main_cst_12 : FVec F S_ .f32 := constant S_ .f32 0x7F800000#32
  let main_v35 : FVec F S192x3x3 .f32 := broadcastInDim S192x3x3 ![] bcast_S_S192x3x3 main_cst_12
  let main_v36 : IVec S192x3x3 1 := cmpf .olt main_v34 main_v35
  let main_c_13 : IVec S_ 1 := constantI S_ 1 1#1
  let main_v37 : IVec S_ 1 := (fun x v => Host.reduce IntOp.andi x v reducesTo_S192x3x3_S_d0_1_2 h_S_) main_v36 main_c_13
  let main_v38 : IVec S_ 1 := andi main_v33 main_v37
  let main_v39 : FVec F S192x3x1 .f32 := Host.absf main_arg8
  let main_cst_14 : FVec F S_ .f32 := constant S_ .f32 0x7F800000#32
  let main_v40 : FVec F S192x3x1 .f32 := broadcastInDim S192x3x1 ![] bcast_S_S192x3x1 main_cst_14
  let main_v41 : IVec S192x3x1 1 := cmpf .olt main_v39 main_v40
  let main_c_15 : IVec S_ 1 := constantI S_ 1 1#1
  let main_v42 : IVec S_ 1 := (fun x v => Host.reduce IntOp.andi x v reducesTo_S192x3x1_S_d0_1_2 h_S_) main_v41 main_c_15
  let main_v43 : IVec S_ 1 := andi main_v38 main_v42
  let main_v44 : FVec F S192x3x1 .f32 := Host.absf main_arg9
  let main_cst_16 : FVec F S_ .f32 := constant S_ .f32 0x7F800000#32
  let main_v45 : FVec F S192x3x1 .f32 := broadcastInDim S192x3x1 ![] bcast_S_S192x3x1 main_cst_16
  let main_v46 : IVec S192x3x1 1 := cmpf .olt main_v44 main_v45
  let main_c_17 : IVec S_ 1 := constantI S_ 1 1#1
  let main_v47 : IVec S_ 1 := (fun x v => Host.reduce IntOp.andi x v reducesTo_S192x3x1_S_d0_1_2 h_S_) main_v46 main_c_17
  let main_v48 : IVec S_ 1 := andi main_v43 main_v47
  let main_v49 : FVec F S192x1x3 .f32 := Host.absf main_arg10
  let main_cst_18 : FVec F S_ .f32 := constant S_ .f32 0x7F800000#32
  let main_v50 : FVec F S192x1x3 .f32 := broadcastInDim S192x1x3 ![] bcast_S_S192x1x3 main_cst_18
  fn_part3 (F := F) main_arg11 main_arg12 main_v48 main_v49 main_v50

def fn_part1 {F : FTy → Type} [FloatOps F] (main_arg4 : FVec F S192x3x3 .f32) (main_arg5 : FVec F S192x3x1 .f32) (main_arg6 : FVec F S192x3x1 .f32) (main_arg7 : FVec F S192x3x3 .f32) (main_arg8 : FVec F S192x3x1 .f32) (main_arg9 : FVec F S192x3x1 .f32) (main_arg10 : FVec F S192x1x3 .f32) (main_arg11 : FVec F S192x1x1 .f32) (main_arg12 : FVec F S192x1x3 .f32) (main_v13 : IVec S_ 1) (main_v16 : IVec S192x3x1 1) : IVec S_ 1 :=
  let main_c_5 : IVec S_ 1 := constantI S_ 1 1#1
  let main_v17 : IVec S_ 1 := (fun x v => Host.reduce IntOp.andi x v reducesTo_S192x3x1_S_d0_1_2 h_S_) main_v16 main_c_5
  let main_v18 : IVec S_ 1 := andi main_v13 main_v17
  let main_v19 : FVec F S192x3x3 .f32 := Host.absf main_arg4
  let main_cst_6 : FVec F S_ .f32 := constant S_ .f32 0x7F800000#32
  let main_v20 : FVec F S192x3x3 .f32 := broadcastInDim S192x3x3 ![] bcast_S_S192x3x3 main_cst_6
  let main_v21 : IVec S192x3x3 1 := cmpf .olt main_v19 main_v20
  let main_c_7 : IVec S_ 1 := constantI S_ 1 1#1
  let main_v22 : IVec S_ 1 := (fun x v => Host.reduce IntOp.andi x v reducesTo_S192x3x3_S_d0_1_2 h_S_) main_v21 main_c_7
  let main_v23 : IVec S_ 1 := andi main_v18 main_v22
  let main_v24 : FVec F S192x3x1 .f32 := Host.absf main_arg5
  let main_cst_8 : FVec F S_ .f32 := constant S_ .f32 0x7F800000#32
  let main_v25 : FVec F S192x3x1 .f32 := broadcastInDim S192x3x1 ![] bcast_S_S192x3x1 main_cst_8
  let main_v26 : IVec S192x3x1 1 := cmpf .olt main_v24 main_v25
  let main_c_9 : IVec S_ 1 := constantI S_ 1 1#1
  let main_v27 : IVec S_ 1 := (fun x v => Host.reduce IntOp.andi x v reducesTo_S192x3x1_S_d0_1_2 h_S_) main_v26 main_c_9
  let main_v28 : IVec S_ 1 := andi main_v23 main_v27
  let main_v29 : FVec F S192x3x1 .f32 := Host.absf main_arg6
  let main_cst_10 : FVec F S_ .f32 := constant S_ .f32 0x7F800000#32
  let main_v30 : FVec F S192x3x1 .f32 := broadcastInDim S192x3x1 ![] bcast_S_S192x3x1 main_cst_10
  let main_v31 : IVec S192x3x1 1 := cmpf .olt main_v29 main_v30
  let main_c_11 : IVec S_ 1 := constantI S_ 1 1#1
  let main_v32 : IVec S_ 1 := (fun x v => Host.reduce IntOp.andi x v reducesTo_S192x3x1_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x192x128x128 .f32) (main_arg1 : FVec F S192x3x1 .f32) (main_arg2 : FVec F S192x3x1 .f32) (main_arg3 : FVec F S192x3x1 .f32) (main_arg4 : FVec F S192x3x3 .f32) (main_arg5 : FVec F S192x3x1 .f32) (main_arg6 : FVec F S192x3x1 .f32) (main_arg7 : FVec F S192x3x3 .f32) (main_arg8 : FVec F S192x3x1 .f32) (main_arg9 : FVec F S192x3x1 .f32) (main_arg10 : FVec F S192x1x3 .f32) (main_arg11 : FVec F S192x1x1 .f32) (main_arg12 : FVec F S192x1x3 .f32) : IVec S_ 1 :=
  let main_v0 : FVec F S8x192x128x128 .f32 := Host.absf main_arg0
  let main_cst : FVec F S_ .f32 := constant S_ .f32 0x7F800000#32
  let main_v1 : FVec F S8x192x128x128 .f32 := broadcastInDim S8x192x128x128 ![] bcast_S_S8x192x128x128 main_cst
  let main_v2 : IVec S8x192x128x128 1 := cmpf .olt main_v0 main_v1
  let main_c : IVec S_ 1 := constantI S_ 1 1#1
  let main_v3 : IVec S_ 1 := (fun x v => Host.reduce IntOp.andi x v reducesTo_S8x192x128x128_S_d0_1_2_3 h_S_) main_v2 main_c
  let main_v4 : FVec F S192x3x1 .f32 := Host.absf main_arg1
  let main_cst_0 : FVec F S_ .f32 := constant S_ .f32 0x7F800000#32
  let main_v5 : FVec F S192x3x1 .f32 := broadcastInDim S192x3x1 ![] bcast_S_S192x3x1 main_cst_0
  let main_v6 : IVec S192x3x1 1 := cmpf .olt main_v4 main_v5
  let main_c_1 : IVec S_ 1 := constantI S_ 1 1#1
  let main_v7 : IVec S_ 1 := (fun x v => Host.reduce IntOp.andi x v reducesTo_S192x3x1_S_d0_1_2 h_S_) main_v6 main_c_1
  let main_v8 : IVec S_ 1 := andi main_v3 main_v7
  let main_v9 : FVec F S192x3x1 .f32 := Host.absf main_arg2
  let main_cst_2 : FVec F S_ .f32 := constant S_ .f32 0x7F800000#32
  let main_v10 : FVec F S192x3x1 .f32 := broadcastInDim S192x3x1 ![] bcast_S_S192x3x1 main_cst_2
  let main_v11 : IVec S192x3x1 1 := cmpf .olt main_v9 main_v10
  let main_c_3 : IVec S_ 1 := constantI S_ 1 1#1
  let main_v12 : IVec S_ 1 := (fun x v => Host.reduce IntOp.andi x v reducesTo_S192x3x1_S_d0_1_2 h_S_) main_v11 main_c_3
  let main_v13 : IVec S_ 1 := andi main_v8 main_v12
  let main_v14 : FVec F S192x3x1 .f32 := Host.absf main_arg3
  let main_cst_4 : FVec F S_ .f32 := constant S_ .f32 0x7F800000#32
  let main_v15 : FVec F S192x3x1 .f32 := broadcastInDim S192x3x1 ![] bcast_S_S192x3x1 main_cst_4
  let main_v16 : IVec S192x3x1 1 := cmpf .olt main_v14 main_v15
  fn_part1 (F := F) main_arg4 main_arg5 main_arg6 main_arg7 main_arg8 main_arg9 main_arg10 main_arg11 main_arg12 main_v13 main_v16
-- ==== Kernel.lean ====
abbrev S8x192x128x128 : Shape := ⟨4, ![8, 192, 128, 128]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S_ : Shape := ⟨0, ![]⟩
abbrev S192x3x1x1 : Shape := ⟨4, ![192, 3, 1, 1]⟩
abbrev S192x9x1x1 : Shape := ⟨4, ![192, 9, 1, 1]⟩
abbrev S192 : Shape := ⟨1, ![192]⟩
abbrev S1x24x128x128 : Shape := ⟨4, ![1, 24, 128, 128]⟩
abbrev S24x3x1x1 : Shape := ⟨4, ![24, 3, 1, 1]⟩
abbrev S24x9x1x1 : Shape := ⟨4, ![24, 9, 1, 1]⟩
abbrev S24x1x1 : Shape := ⟨3, ![24, 1, 1]⟩
abbrev S24x128x128 : Shape := ⟨3, ![24, 128, 128]⟩
abbrev S24x1x1x1 : Shape := ⟨4, ![24, 1, 1, 1]⟩

abbrev nBuf : Space → Nat
  | .hbm => 87
  | .vmem => 30
  | .smem => 0
  | _ => 0

abbrev bufTy : (tb : Table) → Fin (tcTables nBuf tb) → BufTy
  | .hbm, ⟨0, _⟩ => ⟨S8x192x128x128, .f32⟩
  | .hbm, ⟨1, _⟩ => ⟨S192x3x1, .f32⟩
  | .hbm, ⟨2, _⟩ => ⟨S192x3x1, .f32⟩
  | .hbm, ⟨3, _⟩ => ⟨S192x3x1, .f32⟩
  | .hbm, ⟨4, _⟩ => ⟨S192x3x3, .f32⟩
  | .hbm, ⟨5, _⟩ => ⟨S192x3x1, .f32⟩
  | .hbm, ⟨6, _⟩ => ⟨S192x3x1, .f32⟩
  | .hbm, ⟨7, _⟩ => ⟨S192x3x3, .f32⟩
  | .hbm, ⟨8, _⟩ => ⟨S192x3x1, .f32⟩
  | .hbm, ⟨9, _⟩ => ⟨S192x3x1, .f32⟩
  | .hbm, ⟨10, _⟩ => ⟨S192x1x3, .f32⟩
  | .hbm, ⟨11, _⟩ => ⟨S192x1x1, .f32⟩
  | .hbm, ⟨12, _⟩ => ⟨S192x1x3, .f32⟩
  | .hbm, ⟨13, _⟩ => ⟨S_, .f32⟩
  | .hbm, ⟨14, _⟩ => ⟨S192x3x1, .f32⟩
  | .hbm, ⟨15, _⟩ => ⟨S192x3x1, .f32⟩
  | .hbm, ⟨16, _⟩ => ⟨S192x3x1, .f32⟩
  | .hbm, ⟨17, _⟩ => ⟨S192x3x1, .f32⟩
  | .hbm, ⟨18, _⟩ => ⟨S192x3x1, .i1⟩
  | .hbm, ⟨19, _⟩ => ⟨S192x3x1, .f32⟩
  | .hbm, ⟨20, _⟩ => ⟨S192x3x1, .f32⟩
  | .hbm, ⟨21, _⟩ => ⟨S192x3x1, .f32⟩
  | .hbm, ⟨22, _⟩ => ⟨S192x3x1, .f32⟩
  | .hbm, ⟨23, _⟩ => ⟨S192x3x1, .f32⟩
  | .hbm, ⟨24, _⟩ => ⟨S192x3x1, .f32⟩
  | .hbm, ⟨25, _⟩ => ⟨S192x3x1, .f32⟩
  | .hbm, ⟨26, _⟩ => ⟨S192x3x1, .f32⟩
  | .hbm, ⟨27, _⟩ => ⟨S192x3x1x1, .f32⟩
  | .hbm, ⟨28, _⟩ => ⟨S192x3x1x1, .f32⟩
  | .hbm, ⟨29, _⟩ => ⟨S192x3x1, .f32⟩
  | .hbm, ⟨30, _⟩ => ⟨S192x3x1x1, .f32⟩
  | .hbm, ⟨31, _⟩ => ⟨S_, .f32⟩
  | .hbm, ⟨32, _⟩ => ⟨S192x3x3, .f32⟩
  | .hbm, ⟨33, _⟩ => ⟨S192x3x3, .f32⟩
  | .hbm, ⟨34, _⟩ => ⟨S192x3x3, .f32⟩
  | .hbm, ⟨35, _⟩ => ⟨S192x3x3, .f32⟩
  | .hbm, ⟨36, _⟩ => ⟨S192x3x3, .i1⟩
  | .hbm, ⟨37, _⟩ => ⟨S192x3x3, .f32⟩
  | .hbm, ⟨38, _⟩ => ⟨S192x3x3, .f32⟩
  | .hbm, ⟨39, _⟩ => ⟨S192x3x3, .f32⟩
  | .hbm, ⟨40, _⟩ => ⟨S192x3x3, .f32⟩
  | .hbm, ⟨41, _⟩ => ⟨S192x3x3, .f32⟩
  | .hbm, ⟨42, _⟩ => ⟨S192x3x3, .f32⟩
  | .hbm, ⟨43, _⟩ => ⟨S192x3x3, .f32⟩
  | .hbm, ⟨44, _⟩ => ⟨S192x3x3, .f32⟩
  | .hbm, ⟨45, _⟩ => ⟨S192x9x1x1, .f32⟩
  | .hbm, ⟨46, _⟩ => ⟨S192x3x1x1, .f32⟩
  | .hbm, ⟨47, _⟩ => ⟨S192x3x1, .f32⟩
  | .hbm, ⟨48, _⟩ => ⟨S192x3x1x1, .f32⟩
  | .hbm, ⟨49, _⟩ => ⟨S_, .f32⟩
  | .hbm, ⟨50, _⟩ => ⟨S192x3x3, .f32⟩
  | .hbm, ⟨51, _⟩ => ⟨S192x3x3, .f32⟩
  | .hbm, ⟨52, _⟩ => ⟨S192x3x3, .f32⟩
  | .hbm, ⟨53, _⟩ => ⟨S192x3x3, .f32⟩
  | .hbm, ⟨54, _⟩ => ⟨S192x3x3, .i1⟩
  | .hbm, ⟨55, _⟩ => ⟨S192x3x3, .f32⟩
  | .hbm, ⟨56, _⟩ => ⟨S192x3x3, .f32⟩
  | .hbm, ⟨57, _⟩ => ⟨S192x3x3, .f32⟩
  | .hbm, ⟨58, _⟩ => ⟨S192x3x3, .f32⟩
  | .hbm, ⟨59, _⟩ => ⟨S192x3x3, .f32⟩
  | .hbm, ⟨60, _⟩ => ⟨S192x3x3, .f32⟩
  | .hbm, ⟨61, _⟩ => ⟨S192x3x3, .f32⟩
  | .hbm, ⟨62, _⟩ => ⟨S192x3x3, .f32⟩
  | .hbm, ⟨63, _⟩ => ⟨S192x9x1x1, .f32⟩
  | .hbm, ⟨64, _⟩ => ⟨S192x3x1x1, .f32⟩
  | .hbm, ⟨65, _⟩ => ⟨S192x3x1, .f32⟩
  | .hbm, ⟨66, _⟩ => ⟨S192x3x1x1, .f32⟩
  | .hbm, ⟨67, _⟩ => ⟨S_, .f32⟩
  | .hbm, ⟨68, _⟩ => ⟨S192x1x3, .f32⟩
  | .hbm, ⟨69, _⟩ => ⟨S192x1x3, .f32⟩
  | .hbm, ⟨70, _⟩ => ⟨S192x1x3, .f32⟩
  | .hbm, ⟨71, _⟩ => ⟨S192x1x3, .f32⟩
  | .hbm, ⟨72, _⟩ => ⟨S192x1x3, .i1⟩
  | .hbm, ⟨73, _⟩ => ⟨S192x1x3, .f32⟩
  | .hbm, ⟨74, _⟩ => ⟨S192x1x3, .f32⟩
  | .hbm, ⟨75, _⟩ => ⟨S192x1x3, .f32⟩
  | .hbm, ⟨76, _⟩ => ⟨S192x1x3, .f32⟩
  | .hbm, ⟨77, _⟩ => ⟨S192x1x3, .f32⟩
  | .hbm, ⟨78, _⟩ => ⟨S192x1x3, .f32⟩
  | .hbm, ⟨79, _⟩ => ⟨S192x1x3, .f32⟩
  | .hbm, ⟨80, _⟩ => ⟨S192x1x3, .f32⟩
  | .hbm, ⟨81, _⟩ => ⟨S192x3x1x1, .f32⟩
  | .hbm, ⟨82, _⟩ => ⟨S192x1x1, .f32⟩
  | .hbm, ⟨83, _⟩ => ⟨S192, .f32⟩
  | .hbm, ⟨84, _⟩ => ⟨S192x1x1, .f32⟩
  | .hbm, ⟨85, _⟩ => ⟨S8x192x128x128, .f32⟩
  | .hbm, ⟨86, _⟩ => ⟨S8x192x128x128, .f32⟩
  | .local _ .vmem, ⟨0, _⟩ => ⟨S1x24x128x128, .f32⟩
  | .local _ .vmem, ⟨1, _⟩ => ⟨S1x24x128x128, .f32⟩
  | .local _ .vmem, ⟨2, _⟩ => ⟨S24x3x1x1, .f32⟩
  | .local _ .vmem, ⟨3, _⟩ => ⟨S24x3x1x1, .f32⟩
  | .local _ .vmem, ⟨4, _⟩ => ⟨S24x3x1x1, .f32⟩
  | .local _ .vmem, ⟨5, _⟩ => ⟨S24x3x1x1, .f32⟩
  | .local _ .vmem, ⟨6, _⟩ => ⟨S24x3x1x1, .f32⟩
  | .local _ .vmem, ⟨7, _⟩ => ⟨S24x3x1x1, .f32⟩
  | .local _ .vmem, ⟨8, _⟩ => ⟨S24x9x1x1, .f32⟩
  | .local _ .vmem, ⟨9, _⟩ => ⟨S24x9x1x1, .f32⟩
  | .local _ .vmem, ⟨10, _⟩ => ⟨S24x3x1x1, .f32⟩
  | .local _ .vmem, ⟨11, _⟩ => ⟨S24x3x1x1, .f32⟩
  | .local _ .vmem, ⟨12, _⟩ => ⟨S24x3x1x1, .f32⟩
  | .local _ .vmem, ⟨13, _⟩ => ⟨S24x3x1x1, .f32⟩
  | .local _ .vmem, ⟨14, _⟩ => ⟨S24x9x1x1, .f32⟩
  | .local _ .vmem, ⟨15, _⟩ => ⟨S24x9x1x1, .f32⟩
  | .local _ .vmem, ⟨16, _⟩ => ⟨S24x3x1x1, .f32⟩
  | .local _ .vmem, ⟨17, _⟩ => ⟨S24x3x1x1, .f32⟩
  | .local _ .vmem, ⟨18, _⟩ => ⟨S24x3x1x1, .f32⟩
  | .local _ .vmem, ⟨19, _⟩ => ⟨S24x3x1x1, .f32⟩
  | .local _ .vmem, ⟨20, _⟩ => ⟨S24x3x1x1, .f32⟩
  | .local _ .vmem, ⟨21, _⟩ => ⟨S24x3x1x1, .f32⟩
  | .local _ .vmem, ⟨22, _⟩ => ⟨S24x1x1, .f32⟩
  | .local _ .vmem, ⟨23, _⟩ => ⟨S24x1x1, .f32⟩
  | .local _ .vmem, ⟨24, _⟩ => ⟨S24x1x1, .f32⟩
  | .local _ .vmem, ⟨25, _⟩ => ⟨S24x1x1, .f32⟩
  | .local _ .vmem, ⟨26, _⟩ => ⟨S1x24x128x128, .f32⟩
  | .local _ .vmem, ⟨27, _⟩ => ⟨S1x24x128x128, .f32⟩
  | .local _ .vmem, ⟨28, _⟩ => ⟨S1x24x128x128, .f32⟩
  | .local _ .vmem, ⟨29, _⟩ => ⟨S1x24x128x128, .f32⟩
  | _, _ => ⟨S8x192x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_call2_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_call3_cst : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20_0 : Ref sig .tc := ⟨.hbm, 85, rfl⟩
abbrev main_v20_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [BitOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x24x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S24x3x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S24x3x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S24x3x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S24x9x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S24x3x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S24x3x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S24x9x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S24x3x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S24x3x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S24x3x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S24x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S24x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x24x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x24x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  bcast_S_S192x3x1 : S_.BroadcastsInDim S192x3x1 (![] : Fin 0 → Fin S192x3x1.rank)
  shapeCasts_S192x3x1_S192x3x1x1 : S192x3x1.ShapeCasts S192x3x1x1
  bcast_S_S192x3x3 : S_.BroadcastsInDim S192x3x3 (![] : Fin 0 → Fin S192x3x3.rank)
  shapeCasts_S192x3x3_S192x9x1x1 : S192x3x3.ShapeCasts S192x9x1x1
  bcast_S_S192x1x3 : S_.BroadcastsInDim S192x1x3 (![] : Fin 0 → Fin S192x1x3.rank)
  shapeCasts_S192x1x3_S192x3x1x1 : S192x1x3.ShapeCasts S192x3x1x1
  slices_S192x1x3_S192x1x1_0_0_1 : S192x1x3.Slices ![0, 0, 1] S192x1x1
  shapeCasts_S192x1x1_S192 : S192x1x1.ShapeCasts S192
  shapeCasts_S192_S192x1x1 : S192.ShapeCasts S192x1x1
  inb_S1x24x128x128_S1x24x128x128_0_0_0_0 : ∀ a, (![0, 0, 0, 0] : Fin 4 → Nat) a + S1x24x128x128.size a ≤ S1x24x128x128.size a
  h_S1x24x128x128 : 0 < S1x24x128x128.numel
  shapeCasts_S1x24x128x128_S24x128x128 : S1x24x128x128.ShapeCasts S24x128x128
  inb_S24x3x1x1_S24x3x1x1_0_0_0_0 : ∀ a, (![0, 0, 0, 0] : Fin 4 → Nat) a + S24x3x1x1.size a ≤ S24x3x1x1.size a
  h_S24x3x1x1 : 0 < S24x3x1x1.numel
  shapeCasts_S24x3x1x1_S24x3x1x1 : S24x3x1x1.ShapeCasts S24x3x1x1
  inb_S24x9x1x1_S24x9x1x1_0_0_0_0 : ∀ a, (![0, 0, 0, 0] : Fin 4 → Nat) a + S24x9x1x1.size a ≤ S24x9x1x1.size a
  h_S24x9x1x1 : 0 < S24x9x1x1.numel
  shapeCasts_S24x9x1x1_S24x9x1x1 : S24x9x1x1.ShapeCasts S24x9x1x1
  inb_S24x1x1_S24x1x1_0_0_0 : ∀ a, (![0, 0, 0] : Fin 3 → Nat) a + S24x1x1.size a ≤ S24x1x1.size a
  h_S24x1x1 : 0 < S24x1x1.numel
  shapeCasts_S24x1x1_S24x1x1 : S24x1x1.ShapeCasts S24x1x1
  slices_S24x3x1x1_o0_0_0_0_S24x1x1x1 : S24x3x1x1.Slices ![0, 0, 0, 0] S24x1x1x1
  shapeCasts_S24x1x1x1_S24x1x1 : S24x1x1x1.ShapeCasts S24x1x1
  slices_S24x3x1x1_o0_1_0_0_S24x1x1x1 : S24x3x1x1.Slices ![0, 1, 0, 0] S24x1x1x1
  slices_S24x3x1x1_o0_2_0_0_S24x1x1x1 : S24x3x1x1.Slices ![0, 2, 0, 0] S24x1x1x1
  slices_S24x9x1x1_o0_0_0_0_S24x1x1x1 : S24x9x1x1.Slices ![0, 0, 0, 0] S24x1x1x1
  slices_S24x9x1x1_o0_1_0_0_S24x1x1x1 : S24x9x1x1.Slices ![0, 1, 0, 0] S24x1x1x1
  slices_S24x9x1x1_o0_2_0_0_S24x1x1x1 : S24x9x1x1.Slices ![0, 2, 0, 0] S24x1x1x1
  slices_S24x9x1x1_o0_3_0_0_S24x1x1x1 : S24x9x1x1.Slices ![0, 3, 0, 0] S24x1x1x1
  slices_S24x9x1x1_o0_4_0_0_S24x1x1x1 : S24x9x1x1.Slices ![0, 4, 0, 0] S24x1x1x1
  slices_S24x9x1x1_o0_5_0_0_S24x1x1x1 : S24x9x1x1.Slices ![0, 5, 0, 0] S24x1x1x1
  slices_S24x9x1x1_o0_6_0_0_S24x1x1x1 : S24x9x1x1.Slices ![0, 6, 0, 0] S24x1x1x1
  slices_S24x9x1x1_o0_7_0_0_S24x1x1x1 : S24x9x1x1.Slices ![0, 7, 0, 0] S24x1x1x1
  slices_S24x9x1x1_o0_8_0_0_S24x1x1x1 : S24x9x1x1.Slices ![0, 8, 0, 0] S24x1x1x1
  broadcasts_S24x1x1_S24x128x128 : S24x1x1.Broadcasts S24x128x128
  shapeCasts_S24x128x128_S1x24x128x128 : S24x128x128.ShapeCasts S1x24x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x24x128x128.size a ≤ S8x192x128x128.size a
  hwx0_0 : ∀ i : grid0.Coords, EltTy.bits .f32 = 32 ∨ (Rect.block (s := S8x192x128x128) S1x24x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S24x3x1x1.size a ≤ S192x3x1x1.size a
  hwx0_1 : ∀ i : grid0.Coords, EltTy.bits .f32 = 32 ∨ (Rect.block (s := S192x3x1x1) S24x3x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S24x3x1x1.size a ≤ S192x3x1x1.size a
  hwx0_2 : ∀ i : grid0.Coords, EltTy.bits .f32 = 32 ∨ (Rect.block (s := S192x3x1x1) S24x3x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S24x3x1x1.size a ≤ S192x3x1x1.size a
  hwx0_3 : ∀ i : grid0.Coords, EltTy.bits .f32 = 32 ∨ (Rect.block (s := S192x3x1x1) S24x3x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S24x9x1x1.size a ≤ S192x9x1x1.size a
  hwx0_4 : ∀ i : grid0.Coords, EltTy.bits .f32 = 32 ∨ (Rect.block (s := S192x9x1x1) S24x9x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S24x3x1x1.size a ≤ S192x3x1x1.size a
  hwx0_5 : ∀ i : grid0.Coords, EltTy.bits .f32 = 32 ∨ (Rect.block (s := S192x3x1x1) S24x3x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S24x3x1x1.size a ≤ S192x3x1x1.size a
  hwx0_6 : ∀ i : grid0.Coords, EltTy.bits .f32 = 32 ∨ (Rect.block (s := S192x3x1x1) S24x3x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S24x9x1x1.size a ≤ S192x9x1x1.size a
  hwx0_7 : ∀ i : grid0.Coords, EltTy.bits .f32 = 32 ∨ (Rect.block (s := S192x9x1x1) S24x9x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S24x3x1x1.size a ≤ S192x3x1x1.size a
  hwx0_8 : ∀ i : grid0.Coords, EltTy.bits .f32 = 32 ∨ (Rect.block (s := S192x3x1x1) S24x3x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S24x3x1x1.size a ≤ S192x3x1x1.size a
  hwx0_9 : ∀ i : grid0.Coords, EltTy.bits .f32 = 32 ∨ (Rect.block (s := S192x3x1x1) S24x3x1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S24x3x1x1.size a ≤ S192x3x1x1.size a
  hwx0_10 : ∀ i : grid0.Coords, EltTy.bits .f32 = 32 ∨ (Rect.block (s := S192x3x1x1) S24x3x1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S24x1x1.size a ≤ S192x1x1.size a
  hwx0_11 : ∀ i : grid0.Coords, EltTy.bits .f32 = 32 ∨ (Rect.block (s := S192x1x1) S24x1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S24x1x1.size a ≤ S192x1x1.size a
  hwx0_12 : ∀ i : grid0.Coords, EltTy.bits .f32 = 32 ∨ (Rect.block (s := S192x1x1) S24x1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x24x128x128.size a ≤ S8x192x128x128.size a
  hwx0_13 : ∀ i : grid0.Coords, EltTy.bits .f32 = 32 ∨ (Rect.block (s := S8x192x128x128) S1x24x128x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x24x128x128.size a ≤ S8x192x128x128.size a
  hwx0_14 : ∀ i : grid0.Coords, EltTy.bits .f32 = 32 ∨ (Rect.block (s := S8x192x128x128) S1x24x128x128.size (cc0_transform_14 i) (hinb0_14 i)).WholeWords (EltTy.packing .f32)

variable [Facts₀]

abbrev win0_0 : Pipeline.Window sig grid0 :=
  Pipeline.Window.ofSpec (Memref.whole main_arg0) S1x24x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S24x3x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S24x3x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S24x3x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S24x9x1x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S24x3x1x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S24x3x1x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S24x9x1x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12) S24x3x1x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14) S24x3x1x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v16) S24x3x1x1.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S24x1x1.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v19) S24x1x1.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v20_0) S1x24x128x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v20_1) S1x24x128x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8x192x128x128 : Shape := ⟨4, ![8, 192, 128, 128]⟩
abbrev S192x3x1 : Shape := ⟨3, ![192, 3, 1]⟩
abbrev S192x3x3 : Shape := ⟨3, ![192, 3, 3]⟩
abbrev S192x1x3 : Shape := ⟨3, ![192, 1, 3]⟩
abbrev S192x1x1 : Shape := ⟨3, ![192, 1, 1]⟩
abbrev S192x8x128x128 : Shape := ⟨4, ![192, 8, 128, 128]⟩
abbrev S192x1x131072 : Shape := ⟨3, ![192, 1, 131072]⟩
abbrev S_ : Shape := ⟨0, ![]⟩
abbrev S192x3x131072 : Shape := ⟨3, ![192, 3, 131072]⟩

abbrev nBuf : Space → Nat
  | .hbm => 223
  | .vmem => 0
  | .smem => 0
  | _ => 0

abbrev hbmTy0_0 (i : Nat) : BufTy := match i % 128 with
  | 0 => ⟨S8x192x128x128, .f32⟩
  | 1 => ⟨S192x3x1, .f32⟩
  | 2 => ⟨S192x3x1, .f32⟩
  | 3 => ⟨S192x3x1, .f32⟩
  | 4 => ⟨S192x3x3, .f32⟩
  | 5 => ⟨S192x3x1, .f32⟩
  | 6 => ⟨S192x3x1, .f32⟩
  | 7 => ⟨S192x3x3, .f32⟩
  | 8 => ⟨S192x3x1, .f32⟩
  | 9 => ⟨S192x3x1, .f32⟩
  | 10 => ⟨S192x1x3, .f32⟩
  | 11 => ⟨S192x1x1, .f32⟩
  | 12 => ⟨S192x1x3, .f32⟩
  | 13 => ⟨S192x8x128x128, .f32⟩
  | 14 => ⟨S192x1x131072, .f32⟩
  | 15 => ⟨S192x1x1, .f32⟩
  | 16 => ⟨S192x1x131072, .f32⟩
  | 17 => ⟨S192x1x131072, .f32⟩
  | 18 => ⟨S192x1x131072, .f32⟩
  | 19 => ⟨S192x1x131072, .f32⟩
  | 20 => ⟨S192x1x131072, .f32⟩
  | 21 => ⟨S_, .f32⟩
  | 22 => ⟨S192x1x131072, .f32⟩
  | 23 => ⟨S192x1x131072, .f32⟩
  | 24 => ⟨S_, .f32⟩
  | 25 => ⟨S192x3x1, .f32⟩
  | 26 => ⟨S192x3x1, .f32⟩
  | 27 => ⟨S192x3x1, .f32⟩
  | 28 => ⟨S192x3x1, .f32⟩
  | 29 => ⟨S192x3x1, .i1⟩
  | 30 => ⟨S192x3x1, .f32⟩
  | 31 => ⟨S192x3x1, .f32⟩
  | 32 => ⟨S192x3x1, .f32⟩
  | 33 => ⟨S192x3x1, .f32⟩
  | 34 => ⟨S192x3x1, .f32⟩
  | 35 => ⟨S192x3x1, .f32⟩
  | 36 => ⟨S192x3x1, .f32⟩
  | 37 => ⟨S192x3x1, .f32⟩
  | 38 => ⟨S192x3x131072, .f32⟩
  | 39 => ⟨S192x3x131072, .f32⟩
  | 40 => ⟨S192x3x131072, .f32⟩
  | 41 => ⟨S192x3x1, .f32⟩
  | 42 => ⟨S192x3x131072, .f32⟩
  | 43 => ⟨S192x3x131072, .f32⟩
  | 44 => ⟨S192x3x131072, .f32⟩
  | 45 => ⟨S192x3x131072, .f32⟩
  | 46 => ⟨S_, .f32⟩
  | 47 => ⟨S192x3x3, .f32⟩
  | 48 => ⟨S192x3x3, .f32⟩
  | 49 => ⟨S192x3x3, .f32⟩
  | 50 => ⟨S192x3x3, .f32⟩
  | 51 => ⟨S192x3x3, .i1⟩
  | 52 => ⟨S192x3x3, .f32⟩
  | 53 => ⟨S192x3x3, .f32⟩
  | 54 => ⟨S192x3x3, .f32⟩
  | 55 => ⟨S192x3x3, .f32⟩
  | 56 => ⟨S192x3x3, .f32⟩
  | 57 => ⟨S192x3x3, .f32⟩
  | 58 => ⟨S192x3x3, .f32⟩
  | 59 => ⟨S192x3x3, .f32⟩
  | 60 => ⟨S192x3x131072, .f32⟩
  | 61 => ⟨S192x3x131072, .f32⟩
  | 62 => ⟨S192x3x131072, .f32⟩
  | 63 => ⟨S192x3x1, .f32⟩
  | 64 => ⟨S192x3x131072, .f32⟩
  | 65 => ⟨S192x3x131072, .f32⟩
  | 66 => ⟨S192x3x131072, .f32⟩
  | 67 => ⟨S192x3x131072, .f32⟩
  | 68 => ⟨S_, .f32⟩
  | 69 => ⟨S192x3x3, .f32⟩
  | 70 => ⟨S192x3x3, .f32⟩
  | 71 => ⟨S192x3x3, .f32⟩
  | 72 => ⟨S192x3x3, .f32⟩
  | 73 => ⟨S192x3x3, .i1⟩
  | 74 => ⟨S192x3x3, .f32⟩
  | 75 => ⟨S192x3x3, .f32⟩
  | 76 => ⟨S192x3x3, .f32⟩
  | 77 => ⟨S192x3x3, .f32⟩
  | 78 => ⟨S192x3x3, .f32⟩
  | 79 => ⟨S192x3x3, .f32⟩
  | 80 => ⟨S192x3x3, .f32⟩
  | 81 => ⟨S192x3x3, .f32⟩
  | 82 => ⟨S192x3x131072, .f32⟩
  | 83 => ⟨S192x3x131072, .f32⟩
  | 84 => ⟨S192x3x131072, .f32⟩
  | 85 => ⟨S192x3x1, .f32⟩
  | 86 => ⟨S192x3x131072, .f32⟩
  | 87 => ⟨S192x3x131072, .f32⟩
  | 88 => ⟨S192x3x131072, .f32⟩
  | 89 => ⟨S192x3x131072, .f32⟩
  | 90 => ⟨S_, .f32⟩
  | 91 => ⟨S192x1x3, .f32⟩
  | 92 => ⟨S192x1x3, .f32⟩
  | 93 => ⟨S192x1x3, .f32⟩
  | 94 => ⟨S192x1x3, .f32⟩
  | 95 => ⟨S192x1x3, .i1⟩
  | 96 => ⟨S192x1x3, .f32⟩
  | 97 => ⟨S192x1x3, .f32⟩
  | 98 => ⟨S192x1x3, .f32⟩
  | 99 => ⟨S192x1x3, .f32⟩
  | 100 => ⟨S192x1x3, .f32⟩
  | 101 => ⟨S192x1x3, .f32⟩
  | 102 => ⟨S192x1x3, .f32⟩
  | 103 => ⟨S192x1x3, .f32⟩
  | 104 => ⟨S192x1x131072, .f32⟩
  | 105 => ⟨S192x1x131072, .f32⟩
  | 106 => ⟨S192x1x131072, .f32⟩
  | 107 => ⟨S_, .f32⟩
  | 108 => ⟨S192x1x131072, .f32⟩
  | 109 => ⟨S192x1x131072, .f32⟩
  | 110 => ⟨S_, .f32⟩
  | 111 => ⟨S192x3x1, .f32⟩
  | 112 => ⟨S192x3x1, .f32⟩
  | 113 => ⟨S192x3x1, .f32⟩
  | 114 => ⟨S192x3x1, .f32⟩
  | 115 => ⟨S192x3x1, .i1⟩
  | 116 => ⟨S192x3x1, .f32⟩
  | 117 => ⟨S192x3x1, .f32⟩
  | 118 => ⟨S192x3x1, .f32⟩
  | 119 => ⟨S192x3x1, .f32⟩
  | 120 => ⟨S192x3x1, .f32⟩
  | 121 => ⟨S192x3x1, .f32⟩
  | 122 => ⟨S192x3x1, .f32⟩
  | 123 => ⟨S192x3x1, .f32⟩
  | 124 => ⟨S192x3x131072, .f32⟩
  | 125 => ⟨S192x3x131072, .f32⟩
  | 126 => ⟨S192x3x131072, .f32⟩
  | 127 => ⟨S192x3x1, .f32⟩
  | _ => ⟨S8x192x128x128, .f32⟩

abbrev hbmTy0_1 (i : Nat) : BufTy := match i % 128 with
  | 0 => ⟨S192x3x131072, .f32⟩
  | 1 => ⟨S192x3x131072, .f32⟩
  | 2 => ⟨S192x3x131072, .f32⟩
  | 3 => ⟨S192x3x131072, .f32⟩
  | 4 => ⟨S_, .f32⟩
  | 5 => ⟨S192x3x3, .f32⟩
  | 6 => ⟨S192x3x3, .f32⟩
  | 7 => ⟨S192x3x3, .f32⟩
  | 8 => ⟨S192x3x3, .f32⟩
  | 9 => ⟨S192x3x3, .i1⟩
  | 10 => ⟨S192x3x3, .f32⟩
  | 11 => ⟨S192x3x3, .f32⟩
  | 12 => ⟨S192x3x3, .f32⟩
  | 13 => ⟨S192x3x3, .f32⟩
  | 14 => ⟨S192x3x3, .f32⟩
  | 15 => ⟨S192x3x3, .f32⟩
  | 16 => ⟨S192x3x3, .f32⟩
  | 17 => ⟨S192x3x3, .f32⟩
  | 18 => ⟨S192x3x131072, .f32⟩
  | 19 => ⟨S192x3x131072, .f32⟩
  | 20 => ⟨S192x3x131072, .f32⟩
  | 21 => ⟨S192x3x1, .f32⟩
  | 22 => ⟨S192x3x131072, .f32⟩
  | 23 => ⟨S192x3x131072, .f32⟩
  | 24 => ⟨S192x3x131072, .f32⟩
  | 25 => ⟨S192x3x131072, .f32⟩
  | 26 => ⟨S_, .f32⟩
  | 27 => ⟨S192x3x3, .f32⟩
  | 28 => ⟨S192x3x3, .f32⟩
  | 29 => ⟨S192x3x3, .f32⟩
  | 30 => ⟨S192x3x3, .f32⟩
  | 31 => ⟨S192x3x3, .i1⟩
  | 32 => ⟨S192x3x3, .f32⟩
  | 33 => ⟨S192x3x3, .f32⟩
  | 34 => ⟨S192x3x3, .f32⟩
  | 35 => ⟨S192x3x3, .f32⟩
  | 36 => ⟨S192x3x3, .f32⟩
  | 37 => ⟨S192x3x3, .f32⟩
  | 38 => ⟨S192x3x3, .f32⟩
  | 39 => ⟨S192x3x3, .f32⟩
  | 40 => ⟨S192x3x131072, .f32⟩
  | 41 => ⟨S192x3x131072, .f32⟩
  | 42 => ⟨S192x3x131072, .f32⟩
  | 43 => ⟨S192x3x1, .f32⟩
  | 44 => ⟨S192x3x131072, .f32⟩
  | 45 => ⟨S192x3x131072, .f32⟩
  | 46 => ⟨S192x3x131072, .f32⟩
  | 47 => ⟨S192x3x131072, .f32⟩
  | 48 => ⟨S_, .f32⟩
  | 49 => ⟨S192x1x3, .f32⟩
  | 50 => ⟨S192x1x3, .f32⟩
  | 51 => ⟨S192x1x3, .f32⟩
  | 52 => ⟨S192x1x3, .f32⟩
  | 53 => ⟨S192x1x3, .i1⟩
  | 54 => ⟨S192x1x3, .f32⟩
  | 55 => ⟨S192x1x3, .f32⟩
  | 56 => ⟨S192x1x3, .f32⟩
  | 57 => ⟨S192x1x3, .f32⟩
  | 58 => ⟨S192x1x3, .f32⟩
  | 59 => ⟨S192x1x3, .f32⟩
  | 60 => ⟨S192x1x3, .f32⟩
  | 61 => ⟨S192x1x3, .f32⟩
  | 62 => ⟨S192x1x131072, .f32⟩
  | 63 => ⟨S192x1x131072, .f32⟩
  | 64 => ⟨S192x1x131072, .f32⟩
  | 65 => ⟨S192x1x131072, .f32⟩
  | 66 => ⟨S192x1x131072, .f32⟩
  | 67 => ⟨S192x1x131072, .f32⟩
  | 68 => ⟨S192x1x131072, .f32⟩
  | 69 => ⟨S192x1x131072, .f32⟩
  | 70 => ⟨S192x1x131072, .f32⟩
  | 71 => ⟨S_, .f32⟩
  | 72 => ⟨S192x1x131072, .f32⟩
  | 73 => ⟨S192x1x131072, .f32⟩
  | 74 => ⟨S_, .f32⟩
  | 75 => ⟨S192x1x131072, .f32⟩
  | 76 => ⟨S192x1x131072, .f32⟩
  | 77 => ⟨S192x1x131072, .f32⟩
  | 78 => ⟨S192x1x131072, .f32⟩
  | 79 => ⟨S192x1x131072, .f32⟩
  | 80 => ⟨S_, .f32⟩
  | 81 => ⟨S192x1x131072, .f32⟩
  | 82 => ⟨S192x1x131072, .f32⟩
  | 83 => ⟨S_, .f32⟩
  | 84 => ⟨S192x1x131072, .f32⟩
  | 85 => ⟨S192x1x131072, .f32⟩
  | 86 => ⟨S192x1x131072, .f32⟩
  | 87 => ⟨S192x1x131072, .f32⟩
  | 88 => ⟨S_, .f32⟩
  | 89 => ⟨S192x1x131072, .f32⟩
  | 90 => ⟨S192x1x131072, .f32⟩
  | 91 => ⟨S192x8x128x128, .f32⟩
  | 92 => ⟨S8x192x128x128, .f32⟩
  | 93 => ⟨S192x8x128x128, .f32⟩
  | 94 => ⟨S8x192x128x128, .f32⟩
  | _ => ⟨S8x192x128x128, .f32⟩

abbrev hbmTy (i : Nat) : BufTy := match i / 128 with
  | 0 => hbmTy0_0 i
  | 1 => hbmTy0_1 i
  | _ => ⟨S8x192x128x128, .f32⟩

abbrev bufTy : (tb : Table) → Fin (tcTables nBuf tb) → BufTy
  | .hbm, ⟨i, _⟩ => hbmTy i
  | _, _ => ⟨S8x192x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_call1_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call2_cst : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_call3_cst : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_call4_cst : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_cst_0 : Ref sig .tc := ⟨.hbm, 107, rfl⟩
abbrev main_v41 : Ref sig .tc := ⟨.hbm, 108, rfl⟩
abbrev main_v42 : Ref sig .tc := ⟨.hbm, 109, rfl⟩
abbrev main_call5_cst : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_v6 : Ref sig .tc := ⟨.hbm, 117, rfl⟩
abbrev main_call5_v7 : Ref sig .tc := ⟨.hbm, 118, rfl⟩
abbrev main_call5_v8 : Ref sig .tc := ⟨.hbm, 119, rfl⟩
abbrev main_call5_v9 : Ref sig .tc := ⟨.hbm, 120, rfl⟩
abbrev main_call5_v10 : Ref sig .tc := ⟨.hbm, 121, rfl⟩
abbrev main_call5_v11 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_call6_cst : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_v5 : Ref sig .tc := ⟨.hbm, 138, rfl⟩
abbrev main_call6_v6 : Ref sig .tc := ⟨.hbm, 139, rfl⟩
abbrev main_call6_v7 : Ref sig .tc := ⟨.hbm, 140, rfl⟩
abbrev main_call6_v8 : Ref sig .tc := ⟨.hbm, 141, rfl⟩
abbrev main_call6_v9 : Ref sig .tc := ⟨.hbm, 142, rfl⟩
abbrev main_call6_v10 : Ref sig .tc := ⟨.hbm, 143, rfl⟩
abbrev main_call6_v11 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_call7_cst : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_call7_v5 : Ref sig .tc := ⟨.hbm, 160, rfl⟩
abbrev main_call7_v6 : Ref sig .tc := ⟨.hbm, 161, rfl⟩
abbrev main_call7_v7 : Ref sig .tc := ⟨.hbm, 162, rfl⟩
abbrev main_call7_v8 : Ref sig .tc := ⟨.hbm, 163, rfl⟩
abbrev main_call7_v9 : Ref sig .tc := ⟨.hbm, 164, rfl⟩
abbrev main_call7_v10 : Ref sig .tc := ⟨.hbm, 165, rfl⟩
abbrev main_call7_v11 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_call8_cst : Ref sig .tc := ⟨.hbm, 176, rfl⟩
abbrev main_call8_v0 : Ref sig .tc := ⟨.hbm, 177, rfl⟩
abbrev main_call8_v1 : Ref sig .tc := ⟨.hbm, 178, rfl⟩
abbrev main_call8_v2 : Ref sig .tc := ⟨.hbm, 179, rfl⟩
abbrev main_call8_v3 : Ref sig .tc := ⟨.hbm, 180, rfl⟩
abbrev main_call8_v4 : Ref sig .tc := ⟨.hbm, 181, rfl⟩
abbrev main_call8_v5 : Ref sig .tc := ⟨.hbm, 182, rfl⟩
abbrev main_call8_v6 : Ref sig .tc := ⟨.hbm, 183, rfl⟩
abbrev main_call8_v7 : Ref sig .tc := ⟨.hbm, 184, rfl⟩
abbrev main_call8_v8 : Ref sig .tc := ⟨.hbm, 185, rfl⟩
abbrev main_call8_v9 : Ref sig .tc := ⟨.hbm, 186, rfl⟩
abbrev main_call8_v10 : Ref sig .tc := ⟨.hbm, 187, rfl⟩
abbrev main_call8_v11 : Ref sig .tc := ⟨.hbm, 188, rfl⟩
abbrev main_v70 : Ref sig .tc := ⟨.hbm, 189, rfl⟩
abbrev main_v71 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_cst_1 : Ref sig .tc := ⟨.hbm, 199, rfl⟩
abbrev main_v80 : Ref sig .tc := ⟨.hbm, 200, rfl⟩
abbrev main_v81 : Ref sig .tc := ⟨.hbm, 201, rfl⟩
abbrev main_cst_2 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_cst_3 : Ref sig .tc := ⟨.hbm, 208, rfl⟩
abbrev main_v87 : Ref sig .tc := ⟨.hbm, 209, rfl⟩
abbrev main_v88 : Ref sig .tc := ⟨.hbm, 210, rfl⟩
abbrev main_cst_4 : Ref sig .tc := ⟨.hbm, 211, rfl⟩
abbrev main_v89 : Ref sig .tc := ⟨.hbm, 212, rfl⟩
abbrev main_v90 : Ref sig .tc := ⟨.hbm, 213, rfl⟩
abbrev main_v91 : Ref sig .tc := ⟨.hbm, 214, rfl⟩
abbrev main_v92 : Ref sig .tc := ⟨.hbm, 215, rfl⟩
abbrev main_cst_5 : Ref sig .tc := ⟨.hbm, 216, rfl⟩
abbrev main_v93 : Ref sig .tc := ⟨.hbm, 217, rfl⟩
abbrev main_v94 : Ref sig .tc := ⟨.hbm, 218, rfl⟩
abbrev main_v95 : Ref sig .tc := ⟨.hbm, 219, rfl⟩
abbrev main_v96 : Ref sig .tc := ⟨.hbm, 220, rfl⟩
abbrev main_v97 : Ref sig .tc := ⟨.hbm, 221, rfl⟩
abbrev main_v98 : Ref sig .tc := ⟨.hbm, 222, rfl⟩

abbrev nD : Nat := 1
abbrev τ : Topo := Topo.v7x

variable {F : FTy → Type} [FloatOps F]

class Facts₀ : Prop where
  transposes_S8x192x128x128_S192x8x128x128_1_0_2_3 : S8x192x128x128.Transposes [1, 0, 2, 3] S192x8x128x128
  shapeCasts_S192x8x128x128_S192x1x131072 : S192x8x128x128.ShapeCasts S192x1x131072
  slices_S192x1x3_S192x1x1_0_0_1 : S192x1x3.Slices ![0, 0, 1] S192x1x1
  bcast_S192x1x1_S192x1x131072_0_1_2 : S192x1x1.BroadcastsInDim S192x1x131072 (![0, 1, 2] : Fin 3 → Fin S192x1x131072.rank)
  bcast_S_S192x1x131072 : S_.BroadcastsInDim S192x1x131072 (![] : Fin 0 → Fin S192x1x131072.rank)
  bcast_S_S192x3x1 : S_.BroadcastsInDim S192x3x1 (![] : Fin 0 → Fin S192x3x1.rank)
  bcast_S192x3x1_S192x3x131072_0_1_2 : S192x3x1.BroadcastsInDim S192x3x131072 (![0, 1, 2] : Fin 3 → Fin S192x3x131072.rank)
  bcast_S_S192x3x3 : S_.BroadcastsInDim S192x3x3 (![] : Fin 0 → Fin S192x3x3.rank)
  bcast_S_S192x1x3 : S_.BroadcastsInDim S192x1x3 (![] : Fin 0 → Fin S192x1x3.rank)
  shapeCasts_S192x1x131072_S192x8x128x128 : S192x1x131072.ShapeCasts S192x8x128x128
  transposes_S192x8x128x128_S8x192x128x128_1_0_2_3 : S192x8x128x128.Transposes [1, 0, 2, 3] S8x192x128x128
  dot_S192x3x1_S192x1x131072_S192x3x131072_2_1_1_2_0_0_wf : DotDims.WF S192x3x1 S192x1x131072 S192x3x131072 [2] [1] [1] [2] [0] [0]
  dot_S192x3x3_S192x3x131072_S192x3x131072_2_1_1_2_0_0_wf : DotDims.WF S192x3x3 S192x3x131072 S192x3x131072 [2] [1] [1] [2] [0] [0]
  dot_S192x1x3_S192x3x131072_S192x1x131072_2_1_1_2_0_0_wf : DotDims.WF S192x1x3 S192x3x131072 S192x1x131072 [2] [1] [1] [2] [0] [0]

variable [Facts₀]

def dot_S192x3x1_S192x1x131072_S192x3x131072_2_1_1_2_0_0 : DotDims S192x3x1 S192x1x131072 S192x3x131072 where
  lhsContracting := [2]
  rhsContracting := [1]
  lhsNonContracting := [1]
  rhsNonContracting := [2]
  lhsBatch := [0]
  rhsBatch := [0]
  wf := dot_S192x3x1_S192x1x131072_S192x3x131072_2_1_1_2_0_0_wf
def dot_S192x3x3_S192x3x131072_S192x3x131072_2_1_1_2_0_0 : DotDims S192x3x3 S192x3x131072 S192x3x131072 where
  lhsContracting := [2]
  rhsContracting := [1]
  lhsNonContracting := [1]
  rhsNonContracting := [2]
  lhsBatch := [0]
  rhsBatch := [0]
  wf := dot_S192x3x3_S192x3x131072_S192x3x131072_2_1_1_2_0_0_wf
def dot_S192x1x3_S192x3x131072_S192x1x131072_2_1_1_2_0_0 : DotDims S192x1x3 S192x3x131072 S192x1x131072 where
  lhsContracting := [2]
  rhsContracting := [1]
  lhsNonContracting := [1]
  rhsNonContracting := [2]
  lhsBatch := [0]
  rhsBatch := [0]
  wf := dot_S192x1x3_S192x3x131072_S192x1x131072_2_1_1_2_0_0_wf

class Facts : Prop extends Facts₀ where

variable [Facts]
-- ==== Proof.Cdf.lean ====
/-
  The mathematics both programs compute, per element, on the extended reals.

  A channel c carries a tiny network 1 -> 3 -> 3 -> 3 -> 1 whose weights are the softplus of the
  given matrices and whose gates are the tanh of the given factors.  With the activation
  act t p = p + t * tanh p, the hidden layers are
      h0_i(v) = act t0_i (w0_i * v + b0_i),
      hl_i(v) = act tl_i (bl_i + wl_i0 * h(l-1)_0(v) + wl_i1 * h(l-1)_1(v) + wl_i2 * h(l-1)_2(v))   (l = 1, 2),
  and the cumulative logit is  L(v) = b3 + w3_0 * h2_0(v) + w3_1 * h2_1(v) + w3_2 * h2_2(v).
  An entry x of channel c is quantised about the channel's median mu,
      q = roundeven (x - mu) + mu,
  and its likelihood is, with  lo = L(q - 1/2),  up = L(q + 1/2),  s = - sign (lo + up),
      max ( | sigma(s * up) - sigma(s * lo) | , 1e-9 ),      sigma the logistic function.
  Nothing here depends on a program: the two arrays Gout, Glik below are the whole
  specification, index by index, and the laws at the end are the only algebra the
  comparison of the two programs needs (none of them needs a finite argument).
-/
import Idealize.ShloMosaic.PureOps.Ideal
import Idealize.ShloMosaic.PureOps.Ideal.Laws
import Idealize.ShloMosaic.Lib.ValueIdx

noncomputable section

namespace Cert.Cdf

open Idealize.ShloMosaic Idealize.ShloMosaic.ValueIdx

/-! ## Shapes of the argument arrays -/

abbrev SX : Shape := ⟨4, ![8, 192, 128, 128]⟩
abbrev S31 : Shape := ⟨3, ![192, 3, 1]⟩
abbrev S33 : Shape := ⟨3, ![192, 3, 3]⟩
abbrev S13 : Shape := ⟨3, ![192, 1, 3]⟩
abbrev S11 : Shape := ⟨3, ![192, 1, 1]⟩

/-! ## One channel's network -/

/-- The gated activation p + t * tanh p. -/
def act (t p : EReal) : EReal := p + t * Ideal.tanh p

/-- One channel's activated parameters: weights w, biases b, gates t of the four layers. -/
structure Net where
  w0 : Fin 3 → EReal
  b0 : Fin 3 → EReal
  t0 : Fin 3 → EReal
  w1 : Fin 3 → Fin 3 → EReal
  b1 : Fin 3 → EReal
  t1 : Fin 3 → EReal
  w2 : Fin 3 → Fin 3 → EReal
  b2 : Fin 3 → EReal
  t2 : Fin 3 → EReal
  w3 : Fin 3 → EReal
  b3 : EReal

/-- First hidden layer: one input, three units. -/
def Net.h0 (N : Net) (v : EReal) (i : Fin 3) : EReal := act (N.t0 i) (N.w0 i * v + N.b0 i)

/-- Second hidden layer: the bias first, then the three products in order. -/
def Net.h1 (N : Net) (v : EReal) (i : Fin 3) : EReal :=
  act (N.t1 i) (N.b1 i + N.w1 i 0 * N.h0 v 0 + N.w1 i 1 * N.h0 v 1 + N.w1 i 2 * N.h0 v 2)

/-- Third hidden layer, likewise over the second. -/
def Net.h2 (N : Net) (v : EReal) (i : Fin 3) : EReal :=
  act (N.t2 i) (N.b2 i + N.w2 i 0 * N.h1 v 0 + N.w2 i 1 * N.h1 v 1 + N.w2 i 2 * N.h1 v 2)

/-- The cumulative logit: the last layer has one unit and no gate. -/
def Net.logit (N : Net) (v : EReal) : EReal :=
  N.b3 + N.w3 0 * N.h2 v 0 + N.w3 1 * N.h2 v 1 + N.w3 2 * N.h2 v 2

/-! ## Quantisation and likelihood of one entry -/

/-- One half, as the word both programs spell. -/
def half : EReal := Ideal.ofBits .f32 0x3F000000#32
/-- The likelihood's lower bound (the single-precision word nearest 1e-9), as both programs spell it. -/
def bound : EReal := Ideal.ofBits .f32 0x3089705F#32

/-- Quantisation about the median mu: round x - mu to the nearest integer, ties to even, and add mu back. -/
def quant (x μ : EReal) : EReal := Ideal.liftRound Ideal.roundHalfEven (x - μ) + μ

/-- The absolute value on the extended reals, max z (-z). -/
def abs' (z : EReal) : EReal := max z (-z)

/-- The likelihood of a quantised entry q under the channel's network. -/
def lik (N : Net) (q : EReal) : EReal :=
  max (abs' (Ideal.logistic (-(Ideal.sign (N.logit (q - half) + N.logit (q + half))) * N.logit (q + half))
            - Ideal.logistic (-(Ideal.sign (N.logit (q - half) + N.logit (q + half))) * N.logit (q - half)))) bound

/-! ## The two result arrays, index by index -/

/-- Channel c's network read out of the activated parameter arrays: W0 B0 T0 are [192, 3, 1],
    W1 W2 are [192, 3, 3] (unit, input), W3 is [192, 1, 3], B3 is [192, 1, 1]. -/
def netAt (W0 B0 T0 : S31.Idx → EReal) (W1 : S33.Idx → EReal) (B1 T1 : S31.Idx → EReal)
    (W2 : S33.Idx → EReal) (B2 T2 : S31.Idx → EReal) (W3 : S13.Idx → EReal) (B3 : S11.Idx → EReal)
    (c : Fin 192) : Net where
  w0 i := W0 (ix3 c i 0)
  b0 i := B0 (ix3 c i 0)
  t0 i := T0 (ix3 c i 0)
  w1 i j := W1 (ix3 c i j)
  b1 i := B1 (ix3 c i 0)
  t1 i := T1 (ix3 c i 0)
  w2 i j := W2 (ix3 c i j)
  b2 i := B2 (ix3 c i 0)
  t2 i := T2 (ix3 c i 0)
  w3 j := W3 (ix3 c 0 j)
  b3 := B3 (ix3 c 0 0)

/-- Channel c's median: the middle one of its three quantiles. -/
def median (Q : S13.Idx → EReal) (c : Fin 192) : EReal := Q (ix3 c 0 1)

/-- The quantised array at (b, c, h, w). -/
def outAt (X : SX.Idx → EReal) (Q : S13.Idx → EReal) (b : Fin 8) (c : Fin 192) (h w : Fin 128) : EReal :=
  quant (X (ix4 b c h w)) (median Q c)

/-- The likelihood array at (b, c, h, w). -/
def likAt (X : SX.Idx → EReal) (W0 B0 T0 : S31.Idx → EReal) (W1 : S33.Idx → EReal) (B1 T1 : S31.Idx → EReal)
    (W2 : S33.Idx → EReal) (B2 T2 : S31.Idx → EReal) (W3 : S13.Idx → EReal) (B3 : S11.Idx → EReal)
    (Q : S13.Idx → EReal) (b : Fin 8) (c : Fin 192) (h w : Fin 128) : EReal :=
  lik (netAt W0 B0 T0 W1 B1 T1 W2 B2 T2 W3 B3 c) (outAt X Q b c h w)

/-- THE QUANTISED ARRAY, as one function of the argument arrays. -/
def Gout (X : SX.Idx → EReal) (Q : S13.Idx → EReal) : SX.Idx → EReal :=
  fun i => outAt X Q (i 0) (i 1) (i 2) (i 3)

/-- THE LIKELIHOOD ARRAY, as one function of the argument arrays (the parameters already activated). -/
def Glik (X : SX.Idx → EReal) (W0 B0 T0 : S31.Idx → EReal) (W1 : S33.Idx → EReal) (B1 T1 : S31.Idx → EReal)
    (W2 : S33.Idx → EReal) (B2 T2 : S31.Idx → EReal) (W3 : S13.Idx → EReal) (B3 : S11.Idx → EReal)
    (Q : S13.Idx → EReal) : SX.Idx → EReal :=
  fun i => likAt X W0 B0 T0 W1 B1 T1 W2 B2 T2 W3 B3 Q (i 0) (i 1) (i 2) (i 3)

theorem Gout_ix4 (X : SX.Idx → EReal) (Q : S13.Idx → EReal) (b : Fin 8) (c : Fin 192) (h w : Fin 128) :
    Gout X Q (ix4 b c h w) = outAt X Q b c h w := rfl

theorem Glik_ix4 (X : SX.Idx → EReal) (W0 B0 T0 : S31.Idx → EReal) (W1 : S33.Idx → EReal) (B1 T1 : S31.Idx → EReal)
    (W2 : S33.Idx → EReal) (B2 T2 : S31.Idx → EReal) (W3 : S13.Idx → EReal) (B3 : S11.Idx → EReal)
    (Q : S13.Idx → EReal) (b : Fin 8) (c : Fin 192) (h w : Fin 128) :
    Glik X W0 B0 T0 W1 B1 T1 W2 B2 T2 W3 B3 Q (ix4 b c h w) = likAt X W0 B0 T0 W1 B1 T1 W2 B2 T2 W3 B3 Q b c h w := rfl

/-! ## Activation of the raw parameters

Both programs pass each matrix through the same numerically careful softplus,
    softplus m = max m 0 + log1p (exp (- |m - 0|)),
guarded by a test m - 0 ≠ m - 0 that can only hold of a value that is not a number (there is none
on the extended reals; the guard is kept as written and never evaluated), and each factor through tanh.
The zero is kept as the word both programs spell. -/

/-- Zero, as the word both programs spell. -/
def zero' : EReal := Ideal.ofBits .f32 0x00000000#32

/-- The guarded softplus of one matrix entry, operation by operation as both programs compute it. -/
def softplus (m : EReal) : EReal :=
  Scalar.select (Ideal.cmp .une (m - zero') (m - zero')) (m + zero')
    (max m zero' + Ideal.log1p (Ideal.exp (-(max (m - zero') (-(m - zero'))))))

/-- THE LIKELIHOOD ARRAY as one function of the RAW argument arrays: matrices M, biases B, factors F
    of the four layers, and the quantiles Q. -/
def Lik (X : SX.Idx → EReal) (M0 B0 F0 : S31.Idx → EReal) (M1 : S33.Idx → EReal) (B1 F1 : S31.Idx → EReal)
    (M2 : S33.Idx → EReal) (B2 F2 : S31.Idx → EReal) (M3 : S13.Idx → EReal) (B3 : S11.Idx → EReal)
    (Q : S13.Idx → EReal) : SX.Idx → EReal :=
  Glik X (fun i => softplus (M0 i)) B0 (fun i => Ideal.tanh (F0 i))
    (fun i => softplus (M1 i)) B1 (fun i => Ideal.tanh (F1 i))
    (fun i => softplus (M2 i)) B2 (fun i => Ideal.tanh (F2 i))
    (fun i => softplus (M3 i)) B3 Q

/-! ## The laws that join two spellings of this mathematics

Addition on the extended reals is commutative and associative at the infinities too, so a bias
added before or after a sum of products is the same number, and 0 - s is -s. -/

/-- A bias added after three products summed is the bias added first. -/
theorem sum3_add (a : Fin 3 → EReal) (b : EReal) : (∑ k : Fin 3, a k) + b = b + a 0 + a 1 + a 2 := by
  rw [Fin.sum_univ_three]; abel

/-- A sum over one index is its one term. -/
theorem sum1 (a : Fin 1 → EReal) : (∑ k : Fin 1, a k) = a 0 := by
  simp

/-- Subtracting from zero negates. -/
theorem zero_sub' (s : EReal) : (0 : EReal) - s = -s := by
  rw [sub_eq_add_neg, zero_add]

/-! ## A word

The single-precision word of 1.0 denotes 1. -/

/-- The word of 1.0 denotes 1. -/
theorem ofBits_one : Ideal.ofBits .f32 0x3F800000#32 = 1 := by
  simp [Ideal.ofBits, Ideal.ieee]
  rw [← EReal.coe_mul]
  norm_num

end Cert.Cdf

end
-- ==== Proof.LibLayoutChan.lean ====
/-
  Layout operations of per-channel parameters, read at an index.

  A kernel that keeps one parameter per channel holds it as a column of shape [a, 1, 1] and
  spreads it over an [a, b, c] tile; a group of k parameters per channel is held as [a, k, 1, 1],
  from which one column is cut (offset j on the second axis, a tile [a, 1, 1, 1]) and then viewed
  as [a, 1, 1].  Each lemma says which single entry of the operand such a layout operation reads
  at a given index, with every index written by coordinates.
-/
import Idealize.ShloMosaic.Lib.Pipeline.Value
import Idealize.ShloMosaic.Lib.ValueIdx
import Idealize.ShloMosaic.Lib.ValueLayout

namespace Cert.Lib.LayoutChan

open Idealize.ShloMosaic Idealize.ShloMosaic.ValueIdx

variable {α : Type}

/-- A column [a, 1, 1] spread over [a, b, c] reads, at (p, y, z), the column's entry p. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (y : Fin b) (z : Fin c) :
    broadcastTo ⟨3, ![a, b, c]⟩ v h (ix3 p y z) = v (ix3 p (0 : Fin 1) (0 : Fin 1)) :=
  broadcastTo_apply v h (ix3 p y z) (ix3 p (0 : Fin 1) (0 : Fin 1)) (fun d => by
    match d with
    | ⟨0, _⟩ =>
      show p.val = if a = 1 then 0 else p.val
      by_cases h1 : a = 1
      · rw [if_pos h1]; have := p.isLt; omega
      · rw [if_neg h1]
    | ⟨1, _⟩ => show (0 : ℕ) = if (1 : ℕ) = 1 then 0 else y.val; rw [if_pos rfl]
    | ⟨2, _⟩ => show (0 : ℕ) = if (1 : ℕ) = 1 then 0 else z.val; rw [if_pos rfl])

/-- A tile [a, 1, 1, 1] viewed as [a, 1, 1] reads, at (p, u, v), the tile's entry (p, 0, 0, 0). -/
theorem shapeCast_a111_a11_apply {a : ℕ} (x : (⟨4, ![a, 1, 1, 1]⟩ : Shape).Idx → α)
    (h : (⟨4, ![a, 1, 1, 1]⟩ : Shape).ShapeCasts ⟨3, ![a, 1, 1]⟩) (p : Fin a) (u v : Fin 1) :
    shapeCast ⟨3, ![a, 1, 1]⟩ x h (ix3 p u v) = x (ix4 p (0 : Fin 1) (0 : Fin 1) (0 : Fin 1)) :=
  shapeCast_apply x h _ _ (by
    have hu : u.val = 0 := by omega
    have hv : v.val = 0 := by omega
    rw [Shape.rowMajor_val_four, Shape.rowMajor_val_three]
    show ((p.val * 1 + 0) * 1 + 0) * 1 + 0 = (p.val * 1 + u.val) * 1 + v.val
    omega)

/-- ONE COLUMN OF A PARAMETER GROUP: the group [a, k, 1, 1] cut at offset o on its second axis to a
    tile [a, 1, 1, 1] and viewed as [a, 1, 1] reads, at (p, u, v), the group's entry (p, j, 0, 0)
    with j = o. -/
theorem column_apply {a k : ℕ} (o : ℕ) (X : (⟨4, ![a, k, 1, 1]⟩ : Shape).Idx → α)
    (hs : (⟨4, ![a, k, 1, 1]⟩ : Shape).Slices ![0, o, 0, 0] ⟨4, ![a, 1, 1, 1]⟩)
    (hc : (⟨4, ![a, 1, 1, 1]⟩ : Shape).ShapeCasts ⟨3, ![a, 1, 1]⟩) (p : Fin a) (u v : Fin 1)
    (j : Fin k) (hj : j.val = o) :
    shapeCast ⟨3, ![a, 1, 1]⟩ (extractStridedSlice ⟨4, ![a, 1, 1, 1]⟩ ![0, o, 0, 0] X hs) hc (ix3 p u v)
      = X (ix4 p j (0 : Fin 1) (0 : Fin 1)) := by
  rw [shapeCast_a111_a11_apply]
  exact slice4_axis1_apply o X hs p (0 : Fin 1) (0 : Fin 1) (0 : Fin 1) j (by rw [hj]; rfl)

/-- A cut at offset o of the second axis to width one stays inside the axis: o < k. -/
theorem slices_lt {a k o : ℕ}
    (hs : (⟨4, ![a, k, 1, 1]⟩ : Shape).Slices ![0, o, 0, 0] ⟨4, ![a, 1, 1, 1]⟩) : o < k := by
  obtain ⟨_, hb⟩ := hs
  have h1 := hb (1 : Fin 4)
  have h2 : o + 1 ≤ k := h1
  omega

/-- ONE COLUMN OF A PARAMETER GROUP, as a rewrite rule: the column cut at offset o reads the group's
    entry (p, o, 0, 0). -/
theorem column_at {a k : ℕ} (o : ℕ) (X : (⟨4, ![a, k, 1, 1]⟩ : Shape).Idx → α)
    (hs : (⟨4, ![a, k, 1, 1]⟩ : Shape).Slices ![0, o, 0, 0] ⟨4, ![a, 1, 1, 1]⟩)
    (hc : (⟨4, ![a, 1, 1, 1]⟩ : Shape).ShapeCasts ⟨3, ![a, 1, 1]⟩) (p : Fin a) (u v : Fin 1) :
    shapeCast ⟨3, ![a, 1, 1]⟩ (extractStridedSlice ⟨4, ![a, 1, 1, 1]⟩ ![0, o, 0, 0] X hs) hc (ix3 p u v)
      = X (ix4 p (⟨o, slices_lt hs⟩ : Fin k) (0 : Fin 1) (0 : Fin 1)) :=
  column_apply o X hs hc p u v ⟨o, slices_lt hs⟩ rfl

end Cert.Lib.LayoutChan
-- ==== Proof.KernelBody.lean ====
/-
  The kernel's body, read at an index.

  At a grid point the body holds one tile x of shape [24, 128, 128] (24 channels of one batch
  entry) and, per channel, the activated parameters as columns: groups [24, 3, 1, 1] and
  [24, 9, 1, 1] from which single columns [24, 1, 1] are cut, and two plain columns (the last
  bias and the median).  Every value the body computes is a tile obtained from x and the columns
  by pointwise operations and by spreading a column over the tile, so at the tile index
  (p, h, w) it is a scalar expression in x (p, h, w) and the columns' entries p.  Each lemma below
  reads one named piece of the body at (p, h, w) from the pieces it is built on; the gated
  activation act t q = q + t * tanh q is kept folded, so the expressions stay the size of the
  network and not of its unfolding.
-/
import proofs.«114511_j77747497992520_1_alg».proof.Proof.Gen.KernelIdeal.Skeleton
import proofs.«114511_j77747497992520_1_alg».proof.Proof.Cdf
import proofs.«114511_j77747497992520_1_alg».proof.Proof.LibLayoutChan
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.Cdf Cert.Lib.LayoutChan

/-- A tile: 24 channels of one batch entry. -/
abbrev Tile := FVec Ideal S24x128x128 .f32
/-- A column: one number per channel. -/
abbrev Col := FVec Ideal S24x1x1 .f32

/-! ## Pointwise operations and the two layout operations at an index -/

theorem tanh_at (a : Tile) (i : S24x128x128.Idx) : tanh a i = Ideal.tanh (a i) := rfl
theorem logistic_at (a : Tile) (i : S24x128x128.Idx) : logistic a i = Ideal.logistic (a i) := rfl
theorem absf_at (a : Tile) (i : S24x128x128.Idx) : absf a i = abs' (a i) := rfl
theorem roundeven_at (a : Tile) (i : S24x128x128.Idx) :
    roundeven a i = Ideal.liftRound Ideal.roundHalfEven (a i) := rfl

/-- A column spread over the tile reads the column's entry of the channel. -/
theorem spread_at (v : Col) (hb : S24x1x1.Broadcasts S24x128x128) (p : Fin 24) (h w : Fin 128) :
    broadcastTo S24x128x128 v hb (ix3 p h w) = v (ix3 p (0 : Fin 1) (0 : Fin 1)) :=
  broadcastTo_a11_abc_apply v hb p h w

/-- The loaded tile [1, 24, 128, 128] viewed as [24, 128, 128]. -/
theorem pay3_at (v0 : Vec Ideal S1x24x128x128 .f32) (p : Fin 24) (h w : Fin 128) :
    k0_pay3 v0 (ix3 p h w) = v0 (ix4 (0 : Fin 1) p h w) :=
  shapeCast_1abc_abc_apply v0 _ p h w

/-- A computed tile viewed as [1, 24, 128, 128] for the store. -/
theorem pay1_at (v113 : Tile) (u : Fin 1) (p : Fin 24) (h w : Fin 128) :
    k0_pay1 v113 (ix4 u p h w) = v113 (ix3 p h w) :=
  shapeCast_abc_1abc_apply v113 _ u p h w

/-! ## Quantisation, and the two arguments of the network -/

/-- The quantised tile. -/
theorem pay58_at (v1 : Tile) (v24 : Col) (p : Fin 24) (h w : Fin 128) :
    k0_pay58 v1 v24 (ix3 p h w) = quant (v1 (ix3 p h w)) (v24 (ix3 p 0 0)) := by
  unfold k0_pay58
  simp only [addf_apply, subf_apply, roundeven_at, spread_at]
  rfl

/-- The quantised tile less one half. -/
theorem pay59_at (v1 : Tile) (v24 : Col) (p : Fin 24) (h w : Fin 128) :
    k0_pay59 v1 v24 (ix3 p h w) = quant (v1 (ix3 p h w)) (v24 (ix3 p 0 0)) - half := by
  unfold k0_pay59
  simp only [subf_apply, broadcast_apply, pay58_at]
  rfl

/-- A tile plus one half. -/
theorem pay71_at (v113 : Tile) (i : S24x128x128.Idx) : k0_pay71 v113 i = v113 i + half := by
  unfold k0_pay71
  simp only [addf_apply, broadcast_apply]
  rfl

/-! ## First hidden layer -/

theorem pay60_at (v1 : Tile) (v24 v26 v32 v38 : Col) (p : Fin 24) (h w : Fin 128) :
    k0_pay60 v1 v24 v26 v32 v38 (ix3 p h w)
      = act (v38 (ix3 p 0 0)) (v26 (ix3 p 0 0) * (quant (v1 (ix3 p h w)) (v24 (ix3 p 0 0)) - half) + v32 (ix3 p 0 0)) := by
  unfold k0_pay60
  simp only [addf_apply, mulf_apply, tanh_at, spread_at, pay59_at]
  rfl

theorem pay61_at (v1 : Tile) (v24 v28 : Col) (p : Fin 24) (h w : Fin 128) :
    k0_pay61 v1 v24 v28 (ix3 p h w) = v28 (ix3 p 0 0) * (quant (v1 (ix3 p h w)) (v24 (ix3 p 0 0)) - half) := by
  unfold k0_pay61
  simp only [mulf_apply, spread_at, pay59_at]

theorem pay62_at (v34 : Col) (p : Fin 24) (h w : Fin 128) : k0_pay62 v34 (ix3 p h w) = v34 (ix3 p 0 0) := by
  unfold k0_pay62
  simp only [spread_at]

theorem pay63_at (v40 : Col) (v125 v126 : Tile) (p : Fin 24) (h w : Fin 128) :
    k0_pay63 v40 v125 v126 (ix3 p h w) = act (v40 (ix3 p 0 0)) (v125 (ix3 p h w) + v126 (ix3 p h w)) := by
  unfold k0_pay63
  simp only [addf_apply, mulf_apply, tanh_at, spread_at]
  rfl

theorem pay64_at (v30 v36 v42 : Col) (v115 : Tile) (p : Fin 24) (h w : Fin 128) :
    k0_pay64 v30 v36 v42 v115 (ix3 p h w)
      = act (v42 (ix3 p 0 0)) (v30 (ix3 p 0 0) * v115 (ix3 p h w) + v36 (ix3 p 0 0)) := by
  unfold k0_pay64
  simp only [addf_apply, mulf_apply, tanh_at, spread_at]
  rfl

theorem pay72_at (v26 v32 v38 : Col) (v113 : Tile) (p : Fin 24) (h w : Fin 128) :
    k0_pay72 v26 v32 v38 v113 (ix3 p h w)
      = act (v38 (ix3 p 0 0)) (v26 (ix3 p 0 0) * (v113 (ix3 p h w) + half) + v32 (ix3 p 0 0)) := by
  unfold k0_pay72
  simp only [addf_apply, mulf_apply, tanh_at, spread_at, pay71_at]
  rfl

theorem pay73_at (v28 : Col) (v113 : Tile) (p : Fin 24) (h w : Fin 128) :
    k0_pay73 v28 v113 (ix3 p h w) = v28 (ix3 p 0 0) * (v113 (ix3 p h w) + half) := by
  unfold k0_pay73
  simp only [mulf_apply, spread_at, pay71_at]

theorem pay74_at (v34 v40 : Col) (v245 : Tile) (p : Fin 24) (h w : Fin 128) :
    k0_pay74 v34 v40 v245 (ix3 p h w) = act (v40 (ix3 p 0 0)) (v245 (ix3 p h w) + v34 (ix3 p 0 0)) := by
  unfold k0_pay74
  simp only [addf_apply, mulf_apply, tanh_at, spread_at]
  rfl

theorem pay75_at (v30 v36 v42 : Col) (v235 : Tile) (p : Fin 24) (h w : Fin 128) :
    k0_pay75 v30 v36 v42 v235 (ix3 p h w)
      = act (v42 (ix3 p 0 0)) (v30 (ix3 p 0 0) * v235 (ix3 p h w) + v36 (ix3 p 0 0)) := by
  unfold k0_pay75
  simp only [addf_apply, mulf_apply, tanh_at, spread_at]
  rfl

/-! ## Second hidden layer: the bias, then the three products in order -/

theorem pay65_at (v30 v36 v40 v42 v44 v46 v48 v62 v68 : Col) (v115 v123 v125 v126 : Tile)
    (p : Fin 24) (h w : Fin 128) :
    k0_pay65 v30 v36 v40 v42 v44 v46 v48 v62 v68 v115 v123 v125 v126 (ix3 p h w)
      = act (v68 (ix3 p 0 0)) (v62 (ix3 p 0 0) + v44 (ix3 p 0 0) * v123 (ix3 p h w)
          + v46 (ix3 p 0 0) * act (v40 (ix3 p 0 0)) (v125 (ix3 p h w) + v126 (ix3 p h w))
          + v48 (ix3 p 0 0) * act (v42 (ix3 p 0 0)) (v30 (ix3 p 0 0) * v115 (ix3 p h w) + v36 (ix3 p 0 0))) := by
  unfold k0_pay65
  simp only [addf_apply, mulf_apply, tanh_at, spread_at, pay63_at, pay64_at]
  rfl

theorem pay66_at (v30 v36 v40 v42 v50 v52 v54 v64 v70 : Col) (v115 v123 v125 v126 : Tile)
    (p : Fin 24) (h w : Fin 128) :
    k0_pay66 v30 v36 v40 v42 v50 v52 v54 v64 v70 v115 v123 v125 v126 (ix3 p h w)
      = act (v70 (ix3 p 0 0)) (v64 (ix3 p 0 0) + v50 (ix3 p 0 0) * v123 (ix3 p h w)
          + v52 (ix3 p 0 0) * act (v40 (ix3 p 0 0)) (v125 (ix3 p h w) + v126 (ix3 p h w))
          + v54 (ix3 p 0 0) * act (v42 (ix3 p 0 0)) (v30 (ix3 p 0 0) * v115 (ix3 p h w) + v36 (ix3 p 0 0))) := by
  unfold k0_pay66
  simp only [addf_apply, mulf_apply, tanh_at, spread_at, pay63_at, pay64_at]
  rfl

theorem pay67_at (v30 v36 v40 v42 v56 v58 v60 v66 v72 : Col) (v115 v123 v125 v126 : Tile)
    (p : Fin 24) (h w : Fin 128) :
    k0_pay67 v30 v36 v40 v42 v56 v58 v60 v66 v72 v115 v123 v125 v126 (ix3 p h w)
      = act (v72 (ix3 p 0 0)) (v66 (ix3 p 0 0) + v56 (ix3 p 0 0) * v123 (ix3 p h w)
          + v58 (ix3 p 0 0) * act (v40 (ix3 p 0 0)) (v125 (ix3 p h w) + v126 (ix3 p h w))
          + v60 (ix3 p 0 0) * act (v42 (ix3 p 0 0)) (v30 (ix3 p 0 0) * v115 (ix3 p h w) + v36 (ix3 p 0 0))) := by
  unfold k0_pay67
  simp only [addf_apply, mulf_apply, tanh_at, spread_at, pay63_at, pay64_at]
  rfl

theorem pay76_at (v30 v34 v36 v40 v42 v44 v46 v48 v62 v68 : Col) (v235 v243 v245 : Tile)
    (p : Fin 24) (h w : Fin 128) :
    k0_pay76 v30 v34 v36 v40 v42 v44 v46 v48 v62 v68 v235 v243 v245 (ix3 p h w)
      = act (v68 (ix3 p 0 0)) (v62 (ix3 p 0 0) + v44 (ix3 p 0 0) * v243 (ix3 p h w)
          + v46 (ix3 p 0 0) * act (v40 (ix3 p 0 0)) (v245 (ix3 p h w) + v34 (ix3 p 0 0))
          + v48 (ix3 p 0 0) * act (v42 (ix3 p 0 0)) (v30 (ix3 p 0 0) * v235 (ix3 p h w) + v36 (ix3 p 0 0))) := by
  unfold k0_pay76
  simp only [addf_apply, mulf_apply, tanh_at, spread_at, pay74_at, pay75_at]
  rfl

theorem pay77_at (v30 v34 v36 v40 v42 v50 v52 v54 v64 v70 : Col) (v235 v243 v245 : Tile)
    (p : Fin 24) (h w : Fin 128) :
    k0_pay77 v30 v34 v36 v40 v42 v50 v52 v54 v64 v70 v235 v243 v245 (ix3 p h w)
      = act (v70 (ix3 p 0 0)) (v64 (ix3 p 0 0) + v50 (ix3 p 0 0) * v243 (ix3 p h w)
          + v52 (ix3 p 0 0) * act (v40 (ix3 p 0 0)) (v245 (ix3 p h w) + v34 (ix3 p 0 0))
          + v54 (ix3 p 0 0) * act (v42 (ix3 p 0 0)) (v30 (ix3 p 0 0) * v235 (ix3 p h w) + v36 (ix3 p 0 0))) := by
  unfold k0_pay77
  simp only [addf_apply, mulf_apply, tanh_at, spread_at, pay74_at, pay75_at]
  rfl

theorem pay78_at (v30 v34 v36 v40 v42 v56 v58 v60 v66 v72 : Col) (v235 v243 v245 : Tile)
    (p : Fin 24) (h w : Fin 128) :
    k0_pay78 v30 v34 v36 v40 v42 v56 v58 v60 v66 v72 v235 v243 v245 (ix3 p h w)
      = act (v72 (ix3 p 0 0)) (v66 (ix3 p 0 0) + v56 (ix3 p 0 0) * v243 (ix3 p h w)
          + v58 (ix3 p 0 0) * act (v40 (ix3 p 0 0)) (v245 (ix3 p h w) + v34 (ix3 p 0 0))
          + v60 (ix3 p 0 0) * act (v42 (ix3 p 0 0)) (v30 (ix3 p 0 0) * v235 (ix3 p h w) + v36 (ix3 p 0 0))) := by
  unfold k0_pay78
  simp only [addf_apply, mulf_apply, tanh_at, spread_at, pay74_at, pay75_at]
  rfl

/-! ## Third hidden layer and the logit

The first unit of the third layer is begun in one piece (its bias and first product) and finished
in the next, which also holds the other two units and the logit. -/

theorem pay68_at (v30 v36 v40 v42 v44 v46 v48 v62 v68 v74 v92 : Col) (v115 v123 v125 v126 : Tile)
    (p : Fin 24) (h w : Fin 128) :
    k0_pay68 v30 v36 v40 v42 v44 v46 v48 v62 v68 v74 v92 v115 v123 v125 v126 (ix3 p h w)
      = v92 (ix3 p 0 0) + v74 (ix3 p 0 0)
          * k0_pay65 v30 v36 v40 v42 v44 v46 v48 v62 v68 v115 v123 v125 v126 (ix3 p h w) := by
  unfold k0_pay68
  simp only [addf_apply, mulf_apply, spread_at]

theorem pay69_at (v76 : Col) (p : Fin 24) (h w : Fin 128) : k0_pay69 v76 (ix3 p h w) = v76 (ix3 p 0 0) := by
  unfold k0_pay69
  simp only [spread_at]

theorem pay79_at (v30 v34 v36 v40 v42 v44 v46 v48 v62 v68 v74 v92 : Col) (v235 v243 v245 : Tile)
    (p : Fin 24) (h w : Fin 128) :
    k0_pay79 v30 v34 v36 v40 v42 v44 v46 v48 v62 v68 v74 v92 v235 v243 v245 (ix3 p h w)
      = v92 (ix3 p 0 0) + v74 (ix3 p 0 0)
          * k0_pay76 v30 v34 v36 v40 v42 v44 v46 v48 v62 v68 v235 v243 v245 (ix3 p h w) := by
  unfold k0_pay79
  simp only [addf_apply, mulf_apply, spread_at]

/-- The lower logit: the first unit finished from its begun sum s and the column c of its second
    weight, the other two units, and the last layer. -/
theorem pay70_at (v22 : Vec Ideal S24x1x1 .f32) (v78 v80 v82 v84 v86 v88 v90 v94 v96 v98 v100 v102 v104 v106 v108 : Col)
    (v153 v167 v181 v185 v186 : Tile) (p : Fin 24) (h w : Fin 128) :
    k0_pay70 v22 v78 v80 v82 v84 v86 v88 v90 v94 v96 v98 v100 v102 v104 v106 v108 v153 v167 v181 v185 v186 (ix3 p h w)
      = v22 (ix3 p 0 0)
        + v104 (ix3 p 0 0) * act (v98 (ix3 p 0 0))
            (v185 (ix3 p h w) + v186 (ix3 p h w) * v167 (ix3 p h w) + v78 (ix3 p 0 0) * v181 (ix3 p h w))
        + v106 (ix3 p 0 0) * act (v100 (ix3 p 0 0))
            (v94 (ix3 p 0 0) + v80 (ix3 p 0 0) * v153 (ix3 p h w) + v82 (ix3 p 0 0) * v167 (ix3 p h w)
              + v84 (ix3 p 0 0) * v181 (ix3 p h w))
        + v108 (ix3 p 0 0) * act (v102 (ix3 p 0 0))
            (v96 (ix3 p 0 0) + v86 (ix3 p 0 0) * v153 (ix3 p h w) + v88 (ix3 p 0 0) * v167 (ix3 p h w)
              + v90 (ix3 p 0 0) * v181 (ix3 p h w)) := by
  unfold k0_pay70
  simp only [addf_apply, mulf_apply, tanh_at, spread_at]
  rfl

/-- The upper logit, likewise (here the first unit's second weight is a column, not yet spread). -/
theorem pay80_at (v22 : Vec Ideal S24x1x1 .f32) (v76 v78 v80 v82 v84 v86 v88 v90 v94 v96 v98 v100 v102 v104 v106 v108 : Col)
    (v273 v287 v301 v305 : Tile) (p : Fin 24) (h w : Fin 128) :
    k0_pay80 v22 v76 v78 v80 v82 v84 v86 v88 v90 v94 v96 v98 v100 v102 v104 v106 v108 v273 v287 v301 v305 (ix3 p h w)
      = v22 (ix3 p 0 0)
        + v104 (ix3 p 0 0) * act (v98 (ix3 p 0 0))
            (v305 (ix3 p h w) + v76 (ix3 p 0 0) * v287 (ix3 p h w) + v78 (ix3 p 0 0) * v301 (ix3 p h w))
        + v106 (ix3 p 0 0) * act (v100 (ix3 p 0 0))
            (v94 (ix3 p 0 0) + v80 (ix3 p 0 0) * v273 (ix3 p h w) + v82 (ix3 p 0 0) * v287 (ix3 p h w)
              + v84 (ix3 p 0 0) * v301 (ix3 p h w))
        + v108 (ix3 p 0 0) * act (v102 (ix3 p 0 0))
            (v96 (ix3 p 0 0) + v86 (ix3 p 0 0) * v273 (ix3 p h w) + v88 (ix3 p 0 0) * v287 (ix3 p h w)
              + v90 (ix3 p 0 0) * v301 (ix3 p h w)) := by
  unfold k0_pay80
  simp only [addf_apply, mulf_apply, tanh_at, spread_at]
  rfl

/-! ## The sign of the two logits' sum, and the likelihood -/

/-- The body spells the sign of lo + up with two order tests and the words of -1 and 1: that is the
    sign function of the sum, at the infinities too (the library's law for this spelling). -/
theorem pay81_at (v22 : Vec Ideal S24x1x1 .f32) (v76 v78 v80 v82 v84 v86 v88 v90 v94 v96 v98 v100 v102 v104 v106 v108 : Col)
    (v233 v273 v287 v301 v305 : Tile) (i : S24x128x128.Idx) :
    k0_pay81 v22 v76 v78 v80 v82 v84 v86 v88 v90 v94 v96 v98 v100 v102 v104 v106 v108 v233 v273 v287 v301 v305 i
      = Ideal.sign (v233 i
          + k0_pay80 v22 v76 v78 v80 v82 v84 v86 v88 v90 v94 v96 v98 v100 v102 v104 v106 v108 v273 v287 v301 v305 i) := by
  unfold k0_pay81
  exact Ideal.jnp_sign_eq_sign_f32 _

/-- The likelihood tile: with s the negated sign (zero less the sign), the absolute difference of
    the two logistics of s * up and s * lo, bounded below. -/
theorem pay2_at (v233 v353 v364 : Tile) (z : Ideal .f32) (u : Fin 1) (p : Fin 24) (h w : Fin 128) :
    k0_pay2 v233 v353 v364 z (ix4 u p h w)
      = max (abs' (Ideal.logistic ((z - v364 (ix3 p h w)) * v353 (ix3 p h w))
                  - Ideal.logistic ((z - v364 (ix3 p h w)) * v233 (ix3 p h w)))) bound := by
  unfold k0_pay2
  refine (shapeCast_abc_1abc_apply _ _ u p h w).trans ?_
  simp only [maximumf_apply, absf_at, subf_apply, logistic_at, mulf_apply, broadcast_apply]
  rfl

end Cert.KernelIdeal.Body

end
-- ==== Proof.KernelTile.lean ====
/-
  What one grid point stores, read at an index.

  The two stores of the body each write a whole tile [1, 24, 128, 128].  Read at (0, p, h, w), the
  first is the quantised entry of channel p, and the second is that entry's likelihood under the
  network whose parameters are the entries p of the parameter blocks: a group [24, 3, 1, 1] holds
  a layer's three weights, biases or gates, and a group [24, 9, 1, 1] holds a 3 x 3 weight matrix
  row by row, unit i and input j at position 3 i + j.
-/
import proofs.«114511_j77747497992520_1_alg».proof.Proof.Gen.KernelIdeal.Frame
import proofs.«114511_j77747497992520_1_alg».proof.Proof.KernelBody

noncomputable section

namespace Cert.KernelIdeal.Body

open Cert.KernelIdeal Cert.KernelIdeal.Gen Idealize.ShloMosaic Idealize.ShloMosaic.ValueIdx
open Cert.Cdf Cert.Lib.LayoutChan

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- Position of weight (unit i, input j) in a group of nine. -/
def nine (i j : Fin 3) : Fin 9 := ⟨3 * i.val + j.val, by omega⟩

/-- Channel p's network, read out of the parameter blocks of a grid point. -/
def netB (x1 x2 x3 : Vec Ideal S24x3x1x1 .f32) (x4 : Vec Ideal S24x9x1x1 .f32) (x5 x6 : Vec Ideal S24x3x1x1 .f32)
    (x7 : Vec Ideal S24x9x1x1 .f32) (x8 x9 x10 : Vec Ideal S24x3x1x1 .f32) (x11 : Vec Ideal S24x1x1 .f32)
    (p : Fin 24) : Net where
  w0 i := x1 (ix4 p i 0 0)
  b0 i := x2 (ix4 p i 0 0)
  t0 i := x3 (ix4 p i 0 0)
  w1 i j := x4 (ix4 p (nine i j) 0 0)
  b1 i := x5 (ix4 p i 0 0)
  t1 i := x6 (ix4 p i 0 0)
  w2 i j := x7 (ix4 p (nine i j) 0 0)
  b2 i := x8 (ix4 p i 0 0)
  t2 i := x9 (ix4 p i 0 0)
  w3 j := x10 (ix4 p j 0 0)
  b3 := x11 (ix3 p 0 0)

/-! ## A loaded block viewed in its own shape is itself -/

theorem pay4_eq (v : Vec Ideal S24x3x1x1 .f32) : k0_pay4 v = v := shapeCast_self v _
theorem pay5_eq (v : Vec Ideal S24x3x1x1 .f32) : k0_pay5 v = v := shapeCast_self v _
theorem pay6_eq (v : Vec Ideal S24x3x1x1 .f32) : k0_pay6 v = v := shapeCast_self v _
theorem pay7_eq (v : Vec Ideal S24x9x1x1 .f32) : k0_pay7 v = v := shapeCast_self v _
theorem pay8_eq (v : Vec Ideal S24x3x1x1 .f32) : k0_pay8 v = v := shapeCast_self v _
theorem pay9_eq (v : Vec Ideal S24x3x1x1 .f32) : k0_pay9 v = v := shapeCast_self v _
theorem pay10_eq (v : Vec Ideal S24x9x1x1 .f32) : k0_pay10 v = v := shapeCast_self v _
theorem pay11_eq (v : Vec Ideal S24x3x1x1 .f32) : k0_pay11 v = v := shapeCast_self v _
theorem pay12_eq (v : Vec Ideal S24x3x1x1 .f32) : k0_pay12 v = v := shapeCast_self v _
theorem pay13_eq (v : Vec Ideal S24x3x1x1 .f32) : k0_pay13 v = v := shapeCast_self v _
theorem pay14_eq (v : Vec Ideal S24x1x1 .f32) : k0_pay14 v = v := shapeCast_self v _

/-- THE FIRST STORE at (u, p, h, w): the entry quantised about the channel's median. -/
theorem out13_at (x0 : Vec Ideal S1x24x128x128 .f32) (x1 x2 x3 : Vec Ideal S24x3x1x1 .f32) (x4 : Vec Ideal S24x9x1x1 .f32)
    (x5 x6 : Vec Ideal S24x3x1x1 .f32) (x7 : Vec Ideal S24x9x1x1 .f32) (x8 x9 x10 : Vec Ideal S24x3x1x1 .f32)
    (x11 x12 : Vec Ideal S24x1x1 .f32) (u : Fin 1) (p : Fin 24) (h w : Fin 128) :
    out0_13 x0 x1 x2 x3 x4 x5 x6 x7 x8 x9 x10 x11 x12 (ix4 u p h w)
      = quant (x0 (ix4 (0 : Fin 1) p h w)) (x12 (ix3 p 0 0)) := by
  unfold out0_13
  rw [View.canon_unit_zero hz4]
  simp only [View.ld_unit_zero (S := S1x24x128x128) hz4, View.ld_unit_zero (S := S24x1x1) hz3]
  rw [pay1_at, pay58_at, pay3_at, pay14_eq]

/-- THE SECOND STORE at (u, p, h, w): the likelihood of the quantised entry under channel p's network. -/
theorem out14_at (x0 : Vec Ideal S1x24x128x128 .f32) (x1 x2 x3 : Vec Ideal S24x3x1x1 .f32) (x4 : Vec Ideal S24x9x1x1 .f32)
    (x5 x6 : Vec Ideal S24x3x1x1 .f32) (x7 : Vec Ideal S24x9x1x1 .f32) (x8 x9 x10 : Vec Ideal S24x3x1x1 .f32)
    (x11 x12 : Vec Ideal S24x1x1 .f32) (u : Fin 1) (p : Fin 24) (h w : Fin 128) :
    out0_14 x0 x1 x2 x3 x4 x5 x6 x7 x8 x9 x10 x11 x12 (ix4 u p h w)
      = lik (netB x1 x2 x3 x4 x5 x6 x7 x8 x9 x10 x11 p) (quant (x0 (ix4 (0 : Fin 1) p h w)) (x12 (ix3 p 0 0))) := by
  unfold out0_14
  rw [View.canon_unit_zero hz4]
  simp only [View.ld_unit_zero (S := S1x24x128x128) hz4, View.ld_unit_zero (S := S24x3x1x1) hz4,
    View.ld_unit_zero (S := S24x9x1x1) hz4, View.ld_unit_zero (S := S24x1x1) hz3]
  rw [pay2_at]
  simp only [pay81_at, pay80_at, pay70_at, pay79_at, pay68_at, pay69_at, pay76_at, pay77_at, pay78_at,
    pay65_at, pay66_at, pay67_at, pay60_at, pay61_at, pay62_at, pay72_at, pay73_at, pay71_at, pay58_at, pay59_at, pay3_at,
    pay4_eq, pay5_eq, pay6_eq, pay7_eq, pay8_eq, pay9_eq, pay10_eq, pay11_eq, pay12_eq, pay13_eq, pay14_eq]
  simp only [k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, column_at]
  simp only [Ideal.ofBits_def, Ideal.ofBits_zero_f32, zero_sub']
  simp only [lik, Net.logit, Net.h2, Net.h1, Net.h0, netB]
  rfl

end Cert.KernelIdeal.Body

end
-- ==== Proof.KernelStaged.lean ====
/-
  The parameter arrays as the region finds them, read at an index.

  Before the region the program activates its parameters on the host: each weight matrix goes
  through the guarded softplus, each gate factor through tanh, and every parameter array is
  re-laid so that a channel's k numbers sit on the second axis of a [192, k, 1, 1] array (a
  [192, 3, 3] matrix row by row on an axis of nine, a [192, 1, 3] row on an axis of three).  The
  median is the middle quantile, cut out and re-laid as [192, 1, 1].  Read at an index, each
  staged array is therefore the activation of ONE entry of the argument it came from.
-/
import proofs.«114511_j77747497992520_1_alg».proof.Proof.Gen.KernelIdeal.Frame
import proofs.«114511_j77747497992520_1_alg».proof.Proof.Cdf
import Idealize.ShloMosaic.Lib.StableHlo.Run
import Idealize.ShloMosaic.Lib.Pipeline.Value
import Idealize.ShloMosaic.Lib.ValueIdx

noncomputable section

namespace Cert.KernelIdeal.Staged

open Cert.KernelIdeal Cert.KernelIdeal.Gen Idealize.ShloMosaic Idealize.ShloMosaic.TcCoe Idealize.ShloMosaic.ValueIdx
open Idealize.ShloMosaic.StableHlo Idealize.SL.Sem Cert.Cdf

variable (m : (ℓ : Loc nD τ sig) → Buf (Elt Ideal) ℓ)

/-- The host's softplus of a whole array, operation by operation as the program applies it. -/
def spv {S : Shape} (hb : S_.BroadcastsInDim S ![]) (x : FVec Ideal S .f32) : FVec Ideal S .f32 :=
  select (cmpf .une (subf x (broadcastInDim S ![] hb (constant (F := Ideal) S_ .f32 0x00000000#32)))
                    (subf x (broadcastInDim S ![] hb (constant (F := Ideal) S_ .f32 0x00000000#32))))
    (addf x (broadcastInDim S ![] hb (constant (F := Ideal) S_ .f32 0x00000000#32)))
    (addf (maximumf x (broadcastInDim S ![] hb (constant (F := Ideal) S_ .f32 0x00000000#32)))
      (Host.log1p (Host.exp (Host.negf (Host.absf
        (subf x (broadcastInDim S ![] hb (constant (F := Ideal) S_ .f32 0x00000000#32))))))))

/-- At an index it is the scalar softplus of the entry. -/
theorem spv_at {S : Shape} (hb : S_.BroadcastsInDim S ![]) (x : FVec Ideal S .f32) (i : S.Idx) :
    spv hb x i = softplus (x i) := rfl

/-- The host's tanh of a whole array at an index. -/
theorem tanh_at {S : Shape} (x : FVec Ideal S .f32) (i : S.Idx) : (Host.tanh (F := Ideal) x : FVec Ideal S .f32) i = Ideal.tanh (x i) := rfl

/-! ## The whole staged arrays

Each is read off the fold of the host operations that run before the region. -/

theorem V_v1 (c : Dev nD) : (V m c main_v1 : S192x3x1x1.Idx → EReal)
    = shapeCast S192x3x1x1 (spv bcast_S_S192x3x1 (m ((c : Thread nD τ).loc main_arg1))) shapeCasts_S192x3x1_S192x3x1x1 := by
  dsimp only [Gen.V]
  simp only [Gen.hostOps0, Gen.hostOps0_1, Gen.hostOps0_2, Gen.hostOps0_3, Gen.hostOps0_4, Gen.hostOps0_5,
    Gen.hostOps0_6, Gen.hostOps0_7, List.flatten_cons, List.flatten_nil, List.append_nil, List.cons_append,
    List.nil_append]
  after_results_simp
  rfl
theorem V_v2 (c : Dev nD) : (V m c main_v2 : S192x3x1x1.Idx → EReal)
    = shapeCast S192x3x1x1 (m ((c : Thread nD τ).loc main_arg2)) shapeCasts_S192x3x1_S192x3x1x1 := by
  dsimp only [Gen.V]
  simp only [Gen.hostOps0, Gen.hostOps0_1, Gen.hostOps0_2, Gen.hostOps0_3, Gen.hostOps0_4, Gen.hostOps0_5,
    Gen.hostOps0_6, Gen.hostOps0_7, List.flatten_cons, List.flatten_nil, List.append_nil, List.cons_append,
    List.nil_append]
  after_results_simp
  rfl
theorem V_v4 (c : Dev nD) : (V m c main_v4 : S192x3x1x1.Idx → EReal)
    = shapeCast S192x3x1x1 (Host.tanh (F := Ideal) (s := S192x3x1) (φ := .f32) (m ((c : Thread nD τ).loc main_arg3))) shapeCasts_S192x3x1_S192x3x1x1 := by
  dsimp only [Gen.V]
  simp only [Gen.hostOps0, Gen.hostOps0_1, Gen.hostOps0_2, Gen.hostOps0_3, Gen.hostOps0_4, Gen.hostOps0_5,
    Gen.hostOps0_6, Gen.hostOps0_7, List.flatten_cons, List.flatten_nil, List.append_nil, List.cons_append,
    List.nil_append]
  after_results_simp
  rfl
theorem V_v6 (c : Dev nD) : (V m c main_v6 : S192x9x1x1.Idx → EReal)
    = shapeCast S192x9x1x1 (spv bcast_S_S192x3x3 (m ((c : Thread nD τ).loc main_arg4))) shapeCasts_S192x3x3_S192x9x1x1 := by
  dsimp only [Gen.V]
  simp only [Gen.hostOps0, Gen.hostOps0_1, Gen.hostOps0_2, Gen.hostOps0_3, Gen.hostOps0_4, Gen.hostOps0_5,
    Gen.hostOps0_6, Gen.hostOps0_7, List.flatten_cons, List.flatten_nil, List.append_nil, List.cons_append,
    List.nil_append]
  after_results_simp
  rfl
theorem V_v7 (c : Dev nD) : (V m c main_v7 : S192x3x1x1.Idx → EReal)
    = shapeCast S192x3x1x1 (m ((c : Thread nD τ).loc main_arg5)) shapeCasts_S192x3x1_S192x3x1x1 := by
  dsimp only [Gen.V]
  simp only [Gen.hostOps0, Gen.hostOps0_1, Gen.hostOps0_2, Gen.hostOps0_3, Gen.hostOps0_4, Gen.hostOps0_5,
    Gen.hostOps0_6, Gen.hostOps0_7, List.flatten_cons, List.flatten_nil, List.append_nil, List.cons_append,
    List.nil_append]
  after_results_simp
  rfl
theorem V_v9 (c : Dev nD) : (V m c main_v9 : S192x3x1x1.Idx → EReal)
    = shapeCast S192x3x1x1 (Host.tanh (F := Ideal) (s := S192x3x1) (φ := .f32) (m ((c : Thread nD τ).loc main_arg6))) shapeCasts_S192x3x1_S192x3x1x1 := by
  dsimp only [Gen.V]
  simp only [Gen.hostOps0, Gen.hostOps0_1, Gen.hostOps0_2, Gen.hostOps0_3, Gen.hostOps0_4, Gen.hostOps0_5,
    Gen.hostOps0_6, Gen.hostOps0_7, List.flatten_cons, List.flatten_nil, List.append_nil, List.cons_append,
    List.nil_append]
  after_results_simp
  rfl
theorem V_v11 (c : Dev nD) : (V m c main_v11 : S192x9x1x1.Idx → EReal)
    = shapeCast S192x9x1x1 (spv bcast_S_S192x3x3 (m ((c : Thread nD τ).loc main_arg7))) shapeCasts_S192x3x3_S192x9x1x1 := by
  dsimp only [Gen.V]
  simp only [Gen.hostOps0, Gen.hostOps0_1, Gen.hostOps0_2, Gen.hostOps0_3, Gen.hostOps0_4, Gen.hostOps0_5,
    Gen.hostOps0_6, Gen.hostOps0_7, List.flatten_cons, List.flatten_nil, List.append_nil, List.cons_append,
    List.nil_append]
  after_results_simp
  rfl
theorem V_v12 (c : Dev nD) : (V m c main_v12 : S192x3x1x1.Idx → EReal)
    = shapeCast S192x3x1x1 (m ((c : Thread nD τ).loc main_arg8)) shapeCasts_S192x3x1_S192x3x1x1 := by
  dsimp only [Gen.V]
  simp only [Gen.hostOps0, Gen.hostOps0_1, Gen.hostOps0_2, Gen.hostOps0_3, Gen.hostOps0_4, Gen.hostOps0_5,
    Gen.hostOps0_6, Gen.hostOps0_7, List.flatten_cons, List.flatten_nil, List.append_nil, List.cons_append,
    List.nil_append]
  after_results_simp
  rfl
theorem V_v14 (c : Dev nD) : (V m c main_v14 : S192x3x1x1.Idx → EReal)
    = shapeCast S192x3x1x1 (Host.tanh (F := Ideal) (s := S192x3x1) (φ := .f32) (m ((c : Thread nD τ).loc main_arg9))) shapeCasts_S192x3x1_S192x3x1x1 := by
  dsimp only [Gen.V]
  simp only [Gen.hostOps0, Gen.hostOps0_1, Gen.hostOps0_2, Gen.hostOps0_3, Gen.hostOps0_4, Gen.hostOps0_5,
    Gen.hostOps0_6, Gen.hostOps0_7, List.flatten_cons, List.flatten_nil, List.append_nil, List.cons_append,
    List.nil_append]
  after_results_simp
  rfl
theorem V_v16 (c : Dev nD) : (V m c main_v16 : S192x3x1x1.Idx → EReal)
    = shapeCast S192x3x1x1 (spv bcast_S_S192x1x3 (m ((c : Thread nD τ).loc main_arg10))) shapeCasts_S192x1x3_S192x3x1x1 := by
  dsimp only [Gen.V]
  simp only [Gen.hostOps0, Gen.hostOps0_1, Gen.hostOps0_2, Gen.hostOps0_3, Gen.hostOps0_4, Gen.hostOps0_5,
    Gen.hostOps0_6, Gen.hostOps0_7, List.flatten_cons, List.flatten_nil, List.append_nil, List.cons_append,
    List.nil_append]
  after_results_simp
  rfl
theorem V_v19 (c : Dev nD) : (V m c main_v19 : S192x1x1.Idx → EReal)
    = shapeCast S192x1x1 (shapeCast S192 (extractStridedSlice S192x1x1 ![0, 0, 1] (m ((c : Thread nD τ).loc main_arg12))
        slices_S192x1x3_S192x1x1_0_0_1) shapeCasts_S192x1x1_S192) shapeCasts_S192_S192x1x1 := by
  dsimp only [Gen.V]
  simp only [Gen.hostOps0, Gen.hostOps0_1, Gen.hostOps0_2, Gen.hostOps0_3, Gen.hostOps0_4, Gen.hostOps0_5,
    Gen.hostOps0_6, Gen.hostOps0_7, List.flatten_cons, List.flatten_nil, List.append_nil, List.cons_append,
    List.nil_append]
  after_results_simp
  rfl

/-! ## Read at an index -/

/-- A [192, 3, 1] array re-laid [192, 3, 1, 1]. -/
theorem relay31 (x : S192x3x1.Idx → EReal) (C : Fin 192) (i : Fin 3) :
    shapeCast S192x3x1x1 x shapeCasts_S192x3x1_S192x3x1x1 (ix4 C i (0 : Fin 1) (0 : Fin 1)) = x (ix3 C i (0 : Fin 1)) :=
  shapeCast_apply x _ _ _ (by
    rw [Shape.rowMajor_val_three, Shape.rowMajor_val_four]
    show (C.val * 3 + i.val) * 1 + 0 = ((C.val * 3 + i.val) * 1 + 0) * 1 + 0
    omega)

/-- A [192, 3, 3] array re-laid [192, 9, 1, 1]: (unit i, input j) sits at 3 i + j. -/
theorem relay33 (x : S192x3x3.Idx → EReal) (C : Fin 192) (i j : Fin 3) (k : Fin 9) (hk : k.val = 3 * i.val + j.val) :
    shapeCast S192x9x1x1 x shapeCasts_S192x3x3_S192x9x1x1 (ix4 C k (0 : Fin 1) (0 : Fin 1)) = x (ix3 C i j) :=
  shapeCast_apply x _ _ _ (by
    rw [Shape.rowMajor_val_three, Shape.rowMajor_val_four]
    show (C.val * 3 + i.val) * 3 + j.val = ((C.val * 9 + k.val) * 1 + 0) * 1 + 0
    omega)

/-- A [192, 1, 3] array re-laid [192, 3, 1, 1]. -/
theorem relay13 (x : S192x1x3.Idx → EReal) (C : Fin 192) (j : Fin 3) :
    shapeCast S192x3x1x1 x shapeCasts_S192x1x3_S192x3x1x1 (ix4 C j (0 : Fin 1) (0 : Fin 1)) = x (ix3 C (0 : Fin 1) j) :=
  shapeCast_apply x _ _ _ (by
    rw [Shape.rowMajor_val_three, Shape.rowMajor_val_four]
    show (C.val * 1 + 0) * 3 + j.val = ((C.val * 3 + j.val) * 1 + 0) * 1 + 0
    omega)

theorem V_v1_at (c : Dev nD) (C : Fin 192) (i : Fin 3) :
    (V m c main_v1 : S192x3x1x1.Idx → EReal) (ix4 C i 0 0) = softplus (m ((c : Thread nD τ).loc main_arg1) (ix3 C i 0)) :=
  (congrFun (V_v1 m c) _).trans ((relay31 _ C i).trans (spv_at _ _ _))
theorem V_v2_at (c : Dev nD) (C : Fin 192) (i : Fin 3) :
    (V m c main_v2 : S192x3x1x1.Idx → EReal) (ix4 C i 0 0) = m ((c : Thread nD τ).loc main_arg2) (ix3 C i 0) :=
  (congrFun (V_v2 m c) _).trans (relay31 _ C i)
theorem V_v4_at (c : Dev nD) (C : Fin 192) (i : Fin 3) :
    (V m c main_v4 : S192x3x1x1.Idx → EReal) (ix4 C i 0 0) = Ideal.tanh (m ((c : Thread nD τ).loc main_arg3) (ix3 C i 0)) :=
  (congrFun (V_v4 m c) _).trans ((relay31 _ C i).trans (tanh_at _ _))
theorem V_v6_at (c : Dev nD) (C : Fin 192) (i j : Fin 3) (k : Fin 9) (hk : k.val = 3 * i.val + j.val) :
    (V m c main_v6 : S192x9x1x1.Idx → EReal) (ix4 C k 0 0) = softplus (m ((c : Thread nD τ).loc main_arg4) (ix3 C i j)) :=
  (congrFun (V_v6 m c) _).trans ((relay33 _ C i j k hk).trans (spv_at _ _ _))
theorem V_v7_at (c : Dev nD) (C : Fin 192) (i : Fin 3) :
    (V m c main_v7 : S192x3x1x1.Idx → EReal) (ix4 C i 0 0) = m ((c : Thread nD τ).loc main_arg5) (ix3 C i 0) :=
  (congrFun (V_v7 m c) _).trans (relay31 _ C i)
theorem V_v9_at (c : Dev nD) (C : Fin 192) (i : Fin 3) :
    (V m c main_v9 : S192x3x1x1.Idx → EReal) (ix4 C i 0 0) = Ideal.tanh (m ((c : Thread nD τ).loc main_arg6) (ix3 C i 0)) :=
  (congrFun (V_v9 m c) _).trans ((relay31 _ C i).trans (tanh_at _ _))
theorem V_v11_at (c : Dev nD) (C : Fin 192) (i j : Fin 3) (k : Fin 9) (hk : k.val = 3 * i.val + j.val) :
    (V m c main_v11 : S192x9x1x1.Idx → EReal) (ix4 C k 0 0) = softplus (m ((c : Thread nD τ).loc main_arg7) (ix3 C i j)) :=
  (congrFun (V_v11 m c) _).trans ((relay33 _ C i j k hk).trans (spv_at _ _ _))
theorem V_v12_at (c : Dev nD) (C : Fin 192) (i : Fin 3) :
    (V m c main_v12 : S192x3x1x1.Idx → EReal) (ix4 C i 0 0) = m ((c : Thread nD τ).loc main_arg8) (ix3 C i 0) :=
  (congrFun (V_v12 m c) _).trans (relay31 _ C i)
theorem V_v14_at (c : Dev nD) (C : Fin 192) (i : Fin 3) :
    (V m c main_v14 : S192x3x1x1.Idx → EReal) (ix4 C i 0 0) = Ideal.tanh (m ((c : Thread nD τ).loc main_arg9) (ix3 C i 0)) :=
  (congrFun (V_v14 m c) _).trans ((relay31 _ C i).trans (tanh_at _ _))
theorem V_v16_at (c : Dev nD) (C : Fin 192) (j : Fin 3) :
    (V m c main_v16 : S192x3x1x1.Idx → EReal) (ix4 C j 0 0) = softplus (m ((c : Thread nD τ).loc main_arg10) (ix3 C 0 j)) :=
  (congrFun (V_v16 m c) _).trans ((relay13 _ C j).trans (spv_at _ _ _))

/-- The staged median of channel C is the middle quantile. -/
theorem V_v19_at (c : Dev nD) (C : Fin 192) :
    (V m c main_v19 : S192x1x1.Idx → EReal) (ix3 C 0 0) = m ((c : Thread nD τ).loc main_arg12) (ix3 C (0 : Fin 1) (1 : Fin 3)) := by
  refine (congrFun (V_v19 m c) _).trans ?_
  refine (shapeCast_apply _ _ (ix3 C (0 : Fin 1) (0 : Fin 1)) (ix1 C) (by
    rw [Shape.rowMajor_val_three, Shape.rowMajor_val_one]
    show C.val = (C.val * 1 + 0) * 1 + 0
    omega)).trans ?_
  refine (shapeCast_apply _ _ (ix1 C) (ix3 C (0 : Fin 1) (0 : Fin 1)) (by
    rw [Shape.rowMajor_val_three, Shape.rowMajor_val_one]
    show (C.val * 1 + 0) * 1 + 0 = C.val
    omega)).trans ?_
  exact extractStridedSlice_apply _ _ _ (ix3 C (0 : Fin 1) (0 : Fin 1)) (ix3 C (0 : Fin 1) (1 : Fin 3)) (fun a => by
    match a with
    | ⟨0, _⟩ => exact (Nat.zero_add _).symm
    | ⟨1, _⟩ => exact (Nat.zero_add _).symm
    | ⟨2, _⟩ => rfl)

end Cert.KernelIdeal.Staged

end
-- ==== Proof.KernelValue.lean ====
/-
  From the blocks of the grid points to the two whole result arrays.

  The grid has 8 x 8 points (batch entry, block of 24 channels).  Point t writes block t of each
  result array, a tile [1, 24, 128, 128] at batch b(t) and channels 24 k(t) .. 24 k(t) + 23, and reads
  the same tile of x together with rows 24 k(t) .. 24 k(t) + 23 of every parameter array.  So entry
  (p, h, w) of what point t writes is the quantised entry, and its likelihood, of x at
  (b(t), 24 k(t) + p, h, w) under the network of channel 24 k(t) + p: block t of ONE function of the
  argument arrays.  The 64 blocks tile the arrays, so after the run each result array is that
  function.
-/
import proofs.«114511_j77747497992520_1_alg».proof.Proof.Gen.KernelIdeal.Value
import proofs.«114511_j77747497992520_1_alg».proof.Proof.KernelTile
import proofs.«114511_j77747497992520_1_alg».proof.Proof.KernelStaged

noncomputable section

namespace Cert.KernelIdeal.KValue

open Cert.KernelIdeal Cert.KernelIdeal.Gen Idealize.ShloMosaic Idealize.ShloMosaic.TcCoe Idealize.ShloMosaic.ValueIdx
open Idealize.SL.Sem Cert.Cdf
open Idealize.ShloMosaic.Pipeline (Dat)

variable (m : (ℓ : Loc nD τ sig) → Buf (Elt Ideal) ℓ) (ρ : Dev nD → PrngReg)

/-! ## Where an entry of a block sits in its array

On every axis an entry of a block sits at the block's index times the block's size plus the
entry's own coordinate.  The three lemmas say what that gives for the three kinds of block of this
program, whose index maps are (K, 0, 0, 0), (K, 0, 0) and (B, K, 0, 0). -/

/-- Rows of a parameter group: with block index (K, 0, 0, 0) and block size (24, k, 1, 1), entry
    (p, i, 0, 0) sits at (24 K + p, i, 0, 0). -/
theorem rows4 {k : ℕ} (I : Fin 4 → ℕ) (K : ℕ) (hI : I = ![K, 0, 0, 0]) (p : Fin 24) (i : Fin k) (C : Fin 192)
    (hC : C.val = K * 24 + p.val) (a : Fin 4) :
    I a * (![24, k, 1, 1] : Fin 4 → ℕ) a + 1 * ((ix4 p i (0 : Fin 1) (0 : Fin 1) : (⟨4, ![24, k, 1, 1]⟩ : Shape).Idx) a).val
      = ((ix4 C i (0 : Fin 1) (0 : Fin 1) : (⟨4, ![192, k, 1, 1]⟩ : Shape).Idx) a).val := by
  subst hI
  match a with
  | ⟨0, _⟩ => show K * 24 + 1 * p.val = C.val; omega
  | ⟨1, _⟩ => show 0 * k + 1 * i.val = i.val; omega
  | ⟨2, _⟩ => rfl
  | ⟨3, _⟩ => rfl

/-- Rows of a column of parameters: with block index (K, 0, 0) and block size (24, 1, 1), entry
    (p, 0, 0) sits at (24 K + p, 0, 0). -/
theorem rows3 (I : Fin 3 → ℕ) (K : ℕ) (hI : I = ![K, 0, 0]) (p : Fin 24) (C : Fin 192)
    (hC : C.val = K * 24 + p.val) (a : Fin 3) :
    I a * (![24, 1, 1] : Fin 3 → ℕ) a + 1 * ((ix3 p (0 : Fin 1) (0 : Fin 1) : (⟨3, ![24, 1, 1]⟩ : Shape).Idx) a).val
      = ((ix3 C (0 : Fin 1) (0 : Fin 1) : (⟨3, ![192, 1, 1]⟩ : Shape).Idx) a).val := by
  subst hI
  match a with
  | ⟨0, _⟩ => show K * 24 + 1 * p.val = C.val; omega
  | ⟨1, _⟩ => rfl
  | ⟨2, _⟩ => rfl

/-- A tile of x or of a result: with block index (B, K, 0, 0) and block size (1, 24, 128, 128), entry
    (u, p, h, w) sits at (B, 24 K + p, h, w). -/
theorem tile4 (I : Fin 4 → ℕ) (B K : ℕ) (hI : I = ![B, K, 0, 0]) (u : Fin 1) (p : Fin 24) (h w : Fin 128)
    (b : Fin 8) (C : Fin 192) (hb : b.val = B) (hC : C.val = K * 24 + p.val) (a : Fin 4) :
    I a * (![1, 24, 128, 128] : Fin 4 → ℕ) a + 1 * ((ix4 u p h w : (⟨4, ![1, 24, 128, 128]⟩ : Shape).Idx) a).val
      = ((ix4 b C h w : (⟨4, ![8, 192, 128, 128]⟩ : Shape).Idx) a).val := by
  subst hI
  have hu : u.val = 0 := by omega
  match a with
  | ⟨0, _⟩ => show B * 1 + 1 * u.val = b.val; omega
  | ⟨1, _⟩ => show K * 24 + 1 * p.val = C.val; omega
  | ⟨2, _⟩ => show 0 * 128 + 1 * h.val = h.val; omega
  | ⟨3, _⟩ => show 0 * 128 + 1 * w.val = w.val; omega

/-! ## The index maps, decided over the 64 grid points -/

/-- A result block's batch and channel-block coordinates stay in range. -/
theorem idx14 : ∀ t : Fin cfg0.N, win0_14.index t (0 : Fin 4) ≤ 7 ∧ win0_14.index t (1 : Fin 4) ≤ 7 :=
  (by decide +kernel : ∀ t : Fin grid0.N, _)

/-- The two result windows and the window of x move together, by (batch entry, channel block). -/
theorem idxR14 : ∀ t : Fin cfg0.N, win0_14.index t = ![win0_14.index t (0 : Fin 4), win0_14.index t (1 : Fin 4), 0, 0] :=
  (by decide +kernel : ∀ t : Fin grid0.N, _)
theorem idxR13 : ∀ t : Fin cfg0.N, win0_13.index t = ![win0_14.index t (0 : Fin 4), win0_14.index t (1 : Fin 4), 0, 0] :=
  (by decide +kernel : ∀ t : Fin grid0.N, _)
theorem idxR0 : ∀ t : Fin cfg0.N, win0_0.index t = ![win0_14.index t (0 : Fin 4), win0_14.index t (1 : Fin 4), 0, 0] :=
  (by decide +kernel : ∀ t : Fin grid0.N, _)

/-- Every parameter window moves with the channel block alone. -/
theorem idx1 : ∀ t : Fin cfg0.N, win0_1.index t = ![win0_14.index t (1 : Fin 4), 0, 0, 0] := (by decide +kernel : ∀ t : Fin grid0.N, _)
theorem idx2 : ∀ t : Fin cfg0.N, win0_2.index t = ![win0_14.index t (1 : Fin 4), 0, 0, 0] := (by decide +kernel : ∀ t : Fin grid0.N, _)
theorem idx3 : ∀ t : Fin cfg0.N, win0_3.index t = ![win0_14.index t (1 : Fin 4), 0, 0, 0] := (by decide +kernel : ∀ t : Fin grid0.N, _)
theorem idx4 : ∀ t : Fin cfg0.N, win0_4.index t = ![win0_14.index t (1 : Fin 4), 0, 0, 0] := (by decide +kernel : ∀ t : Fin grid0.N, _)
theorem idx5 : ∀ t : Fin cfg0.N, win0_5.index t = ![win0_14.index t (1 : Fin 4), 0, 0, 0] := (by decide +kernel : ∀ t : Fin grid0.N, _)
theorem idx6 : ∀ t : Fin cfg0.N, win0_6.index t = ![win0_14.index t (1 : Fin 4), 0, 0, 0] := (by decide +kernel : ∀ t : Fin grid0.N, _)
theorem idx7 : ∀ t : Fin cfg0.N, win0_7.index t = ![win0_14.index t (1 : Fin 4), 0, 0, 0] := (by decide +kernel : ∀ t : Fin grid0.N, _)
theorem idx8 : ∀ t : Fin cfg0.N, win0_8.index t = ![win0_14.index t (1 : Fin 4), 0, 0, 0] := (by decide +kernel : ∀ t : Fin grid0.N, _)
theorem idx9 : ∀ t : Fin cfg0.N, win0_9.index t = ![win0_14.index t (1 : Fin 4), 0, 0, 0] := (by decide +kernel : ∀ t : Fin grid0.N, _)
theorem idx10 : ∀ t : Fin cfg0.N, win0_10.index t = ![win0_14.index t (1 : Fin 4), 0, 0, 0] := (by decide +kernel : ∀ t : Fin grid0.N, _)
theorem idx11 : ∀ t : Fin cfg0.N, win0_11.index t = ![win0_14.index t (1 : Fin 4), 0, 0] := (by decide +kernel : ∀ t : Fin grid0.N, _)
theorem idx12 : ∀ t : Fin cfg0.N, win0_12.index t = ![win0_14.index t (1 : Fin 4), 0, 0] := (by decide +kernel : ∀ t : Fin grid0.N, _)

/-- Every (batch entry, channel block) is some point's. -/
theorem onto14 : ∀ (q0 q1 : Fin 8), ∃ t : Fin cfg0.N, win0_14.index t = ![q0.val, q1.val, 0, 0] :=
  (by decide +kernel : ∀ (q0 q1 : Fin 8), ∃ t : Fin grid0.N, win0_14.index t = ![q0.val, q1.val, 0, 0])

/-- Point t's batch entry. -/
def batch (t : Fin cfg0.N) : Fin 8 := ⟨win0_14.index t (0 : Fin 4), by have := (idx14 t).1; omega⟩
/-- Channel p of point t's block of 24. -/
def chan (t : Fin cfg0.N) (p : Fin 24) : Fin 192 :=
  ⟨win0_14.index t (1 : Fin 4) * 24 + p.val, by have := (idx14 t).2; have := p.isLt; omega⟩

/-! ## What each input block holds, entry by entry

Entry p of a parameter block at point t is row 24 k(t) + p of the staged array, that is, the
activation of the argument's entry of channel chan t p; the tile of x is x at batch entry b(t). -/

theorem blk0_at (c : Dev nD) (t : Fin cfg0.N) (p : Fin 24) (h w : Fin 128) :
    (iblk m c 0 t : Vec Ideal S1x24x128x128 .f32) (ix4 (0 : Fin 1) p h w)
      = m ((c : Thread nD τ).loc main_arg0) (ix4 (batch t) (chan t p) h w) := by
  unfold iblk
  rw [View.read_apply]
  exact Eq.trans (congrArg (V m c main_arg0) (funext fun a => Fin.ext
    (tile4 (win0_0.index t) _ _ (idxR0 t) 0 p h w (batch t) (chan t p) rfl rfl a))) (congrFun (V_main_arg0 m c) _)

theorem blk1_at (c : Dev nD) (t : Fin cfg0.N) (p : Fin 24) (i : Fin 3) :
    (iblk m c 1 t : Vec Ideal S24x3x1x1 .f32) (ix4 p i 0 0)
      = softplus (m ((c : Thread nD τ).loc main_arg1) (ix3 (chan t p) i 0)) := by
  unfold iblk
  rw [View.read_apply]
  exact Eq.trans (congrArg (V m c main_v1) (funext fun a => Fin.ext
    (rows4 (win0_1.index t) _ (idx1 t) p i (chan t p) rfl a))) (Staged.V_v1_at m c (chan t p) i)

theorem blk2_at (c : Dev nD) (t : Fin cfg0.N) (p : Fin 24) (i : Fin 3) :
    (iblk m c 2 t : Vec Ideal S24x3x1x1 .f32) (ix4 p i 0 0) = m ((c : Thread nD τ).loc main_arg2) (ix3 (chan t p) i 0) := by
  unfold iblk
  rw [View.read_apply]
  exact Eq.trans (congrArg (V m c main_v2) (funext fun a => Fin.ext
    (rows4 (win0_2.index t) _ (idx2 t) p i (chan t p) rfl a))) (Staged.V_v2_at m c (chan t p) i)

theorem blk3_at (c : Dev nD) (t : Fin cfg0.N) (p : Fin 24) (i : Fin 3) :
    (iblk m c 3 t : Vec Ideal S24x3x1x1 .f32) (ix4 p i 0 0)
      = Ideal.tanh (m ((c : Thread nD τ).loc main_arg3) (ix3 (chan t p) i 0)) := by
  unfold iblk
  rw [View.read_apply]
  exact Eq.trans (congrArg (V m c main_v4) (funext fun a => Fin.ext
    (rows4 (win0_3.index t) _ (idx3 t) p i (chan t p) rfl a))) (Staged.V_v4_at m c (chan t p) i)

theorem blk4_at (c : Dev nD) (t : Fin cfg0.N) (p : Fin 24) (i j : Fin 3) :
    (iblk m c 4 t : Vec Ideal S24x9x1x1 .f32) (ix4 p (Body.nine i j) 0 0)
      = softplus (m ((c : Thread nD τ).loc main_arg4) (ix3 (chan t p) i j)) := by
  unfold iblk
  rw [View.read_apply]
  exact Eq.trans (congrArg (V m c main_v6) (funext fun a => Fin.ext
    (rows4 (win0_4.index t) _ (idx4 t) p (Body.nine i j) (chan t p) rfl a)))
    (Staged.V_v6_at m c (chan t p) i j (Body.nine i j) rfl)

theorem blk5_at (c : Dev nD) (t : Fin cfg0.N) (p : Fin 24) (i : Fin 3) :
    (iblk m c 5 t : Vec Ideal S24x3x1x1 .f32) (ix4 p i 0 0) = m ((c : Thread nD τ).loc main_arg5) (ix3 (chan t p) i 0) := by
  unfold iblk
  rw [View.read_apply]
  exact Eq.trans (congrArg (V m c main_v7) (funext fun a => Fin.ext
    (rows4 (win0_5.index t) _ (idx5 t) p i (chan t p) rfl a))) (Staged.V_v7_at m c (chan t p) i)

theorem blk6_at (c : Dev nD) (t : Fin cfg0.N) (p : Fin 24) (i : Fin 3) :
    (iblk m c 6 t : Vec Ideal S24x3x1x1 .f32) (ix4 p i 0 0)
      = Ideal.tanh (m ((c : Thread nD τ).loc main_arg6) (ix3 (chan t p) i 0)) := by
  unfold iblk
  rw [View.read_apply]
  exact Eq.trans (congrArg (V m c main_v9) (funext fun a => Fin.ext
    (rows4 (win0_6.index t) _ (idx6 t) p i (chan t p) rfl a))) (Staged.V_v9_at m c (chan t p) i)

theorem blk7_at (c : Dev nD) (t : Fin cfg0.N) (p : Fin 24) (i j : Fin 3) :
    (iblk m c 7 t : Vec Ideal S24x9x1x1 .f32) (ix4 p (Body.nine i j) 0 0)
      = softplus (m ((c : Thread nD τ).loc main_arg7) (ix3 (chan t p) i j)) := by
  unfold iblk
  rw [View.read_apply]
  exact Eq.trans (congrArg (V m c main_v11) (funext fun a => Fin.ext
    (rows4 (win0_7.index t) _ (idx7 t) p (Body.nine i j) (chan t p) rfl a)))
    (Staged.V_v11_at m c (chan t p) i j (Body.nine i j) rfl)

theorem blk8_at (c : Dev nD) (t : Fin cfg0.N) (p : Fin 24) (i : Fin 3) :
    (iblk m c 8 t : Vec Ideal S24x3x1x1 .f32) (ix4 p i 0 0) = m ((c : Thread nD τ).loc main_arg8) (ix3 (chan t p) i 0) := by
  unfold iblk
  rw [View.read_apply]
  exact Eq.trans (congrArg (V m c main_v12) (funext fun a => Fin.ext
    (rows4 (win0_8.index t) _ (idx8 t) p i (chan t p) rfl a))) (Staged.V_v12_at m c (chan t p) i)

theorem blk9_at (c : Dev nD) (t : Fin cfg0.N) (p : Fin 24) (i : Fin 3) :
    (iblk m c 9 t : Vec Ideal S24x3x1x1 .f32) (ix4 p i 0 0)
      = Ideal.tanh (m ((c : Thread nD τ).loc main_arg9) (ix3 (chan t p) i 0)) := by
  unfold iblk
  rw [View.read_apply]
  exact Eq.trans (congrArg (V m c main_v14) (funext fun a => Fin.ext
    (rows4 (win0_9.index t) _ (idx9 t) p i (chan t p) rfl a))) (Staged.V_v14_at m c (chan t p) i)

theorem blk10_at (c : Dev nD) (t : Fin cfg0.N) (p : Fin 24) (j : Fin 3) :
    (iblk m c 10 t : Vec Ideal S24x3x1x1 .f32) (ix4 p j 0 0)
      = softplus (m ((c : Thread nD τ).loc main_arg10) (ix3 (chan t p) 0 j)) := by
  unfold iblk
  rw [View.read_apply]
  exact Eq.trans (congrArg (V m c main_v16) (funext fun a => Fin.ext
    (rows4 (win0_10.index t) _ (idx10 t) p j (chan t p) rfl a))) (Staged.V_v16_at m c (chan t p) j)

theorem blk11_at (c : Dev nD) (t : Fin cfg0.N) (p : Fin 24) :
    (iblk m c 11 t : Vec Ideal S24x1x1 .f32) (ix3 p 0 0) = m ((c : Thread nD τ).loc main_arg11) (ix3 (chan t p) 0 0) := by
  unfold iblk
  rw [View.read_apply]
  exact Eq.trans (congrArg (V m c main_arg11) (funext fun a => Fin.ext
    (rows3 (win0_11.index t) _ (idx11 t) p (chan t p) rfl a))) (congrFun (V_main_arg11 m c) _)

theorem blk12_at (c : Dev nD) (t : Fin cfg0.N) (p : Fin 24) :
    (iblk m c 12 t : Vec Ideal S24x1x1 .f32) (ix3 p 0 0)
      = m ((c : Thread nD τ).loc main_arg12) (ix3 (chan t p) (0 : Fin 1) (1 : Fin 3)) := by
  unfold iblk
  rw [View.read_apply]
  exact Eq.trans (congrArg (V m c main_v19) (funext fun a => Fin.ext
    (rows3 (win0_12.index t) _ (idx12 t) p (chan t p) rfl a))) (Staged.V_v19_at m c (chan t p))

/-! ## The two result arrays as functions of the arguments -/

/-- The quantised array of the arguments. -/
def KOut (c : Dev nD) : S8x192x128x128.Idx → EReal := Gout (m ((c : Thread nD τ).loc main_arg0)) (m ((c : Thread nD τ).loc main_arg12))
/-- The likelihood array of the arguments. -/
def KLik (c : Dev nD) : S8x192x128x128.Idx → EReal := Lik (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- Channel p's network out of point t's parameter blocks is the network of channel chan t p out of
    the activated arguments. -/
theorem net_eq (c : Dev nD) (t : Fin cfg0.N) (p : Fin 24) :
    Body.netB (iblk m c 1 t) (iblk m c 2 t) (iblk m c 3 t) (iblk m c 4 t) (iblk m c 5 t) (iblk m c 6 t) (iblk m c 7 t) (iblk m c 8 t) (iblk m c 9 t) (iblk m c 10 t) (iblk m c 11 t) p
      = netAt (fun i => softplus ((m ((c : Thread nD τ).loc main_arg1)) i)) (m ((c : Thread nD τ).loc main_arg2)) (fun i => Ideal.tanh ((m ((c : Thread nD τ).loc main_arg3)) i))
          (fun i => softplus ((m ((c : Thread nD τ).loc main_arg4)) i)) (m ((c : Thread nD τ).loc main_arg5)) (fun i => Ideal.tanh ((m ((c : Thread nD τ).loc main_arg6)) i))
          (fun i => softplus ((m ((c : Thread nD τ).loc main_arg7)) i)) (m ((c : Thread nD τ).loc main_arg8)) (fun i => Ideal.tanh ((m ((c : Thread nD τ).loc main_arg9)) i))
          (fun i => softplus ((m ((c : Thread nD τ).loc main_arg10)) i)) (m ((c : Thread nD τ).loc main_arg11)) (chan t p) := by
  unfold Body.netB netAt
  simp only [Net.mk.injEq]
  exact ⟨funext fun i => blk1_at m c t p i, funext fun i => blk2_at m c t p i, funext fun i => blk3_at m c t p i,
    funext fun i => funext fun j => blk4_at m c t p i j, funext fun i => blk5_at m c t p i,
    funext fun i => blk6_at m c t p i, funext fun i => funext fun j => blk7_at m c t p i j,
    funext fun i => blk8_at m c t p i, funext fun i => blk9_at m c t p i, funext fun j => blk10_at m c t p j,
    blk11_at m c t p⟩

/-- Where entry (u, p, h, w) of point t's result block sits in the array. -/
theorem emb14_eq (t : Fin cfg0.N) (u : Fin 1) (p : Fin 24) (h w : Fin 128) :
    ((cfg0.win 14).blk t).view.emb (ix4 u p h w) = ix4 (batch t) (chan t p) h w :=
  funext fun a => Fin.ext (tile4 (win0_14.index t) _ _ (idxR14 t) u p h w (batch t) (chan t p) rfl rfl a)

theorem emb13_eq (t : Fin cfg0.N) (u : Fin 1) (p : Fin 24) (h w : Fin 128) :
    ((cfg0.win 13).blk t).view.emb (ix4 u p h w) = ix4 (batch t) (chan t p) h w :=
  funext fun a => Fin.ext (tile4 (win0_13.index t) _ _ (idxR13 t) u p h w (batch t) (chan t p) rfl rfl a)

/-- WHAT POINT t STORES FOR THE LIKELIHOOD is the likelihood array at the block's place. -/
theorem tile14 (c : Dev nD) (t : Fin cfg0.N) (y : S1x24x128x128.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = KLik m c (((cfg0.win 14).blk t).view.emb y) := by
  obtain ⟨u, p, h, w, rfl⟩ : ∃ (u : Fin 1) (p : Fin 24) (h w : Fin 128), y = ix4 u p h w := ⟨y 0, y 1, y 2, y 3, eq_ix4 y⟩
  refine (Body.out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) u p h w).trans ?_
  rw [emb14_eq t u p h w, net_eq m c t p, blk0_at m c t p h w, blk12_at m c t p]
  rfl

/-- WHAT POINT t STORES FOR THE QUANTISED ARRAY is that array at the block's place. -/
theorem tile13 (c : Dev nD) (t : Fin cfg0.N) (y : S1x24x128x128.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = KOut m c (((cfg0.win 13).blk t).view.emb y) := by
  obtain ⟨u, p, h, w, rfl⟩ : ∃ (u : Fin 1) (p : Fin 24) (h w : Fin 128), y = ix4 u p h w := ⟨y 0, y 1, y 2, y 3, eq_ix4 y⟩
  refine (Body.out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) u p h w).trans ?_
  rw [emb13_eq t u p h w, blk0_at m c t p h w, blk12_at m c t p]
  rfl

theorem flushed14_eq (c : Dev nD) (t : Fin cfg0.N) :
    (dats m 0 c).flushed 14 t = ((cfg0.win 14).blk t).view.read (Elt Ideal) (KLik m c) := by
  rw [Value.flushed14]
  funext j
  exact tile14 m c t j

theorem flushed13_eq (c : Dev nD) (t : Fin cfg0.N) :
    (dats m 0 c).flushed 13 t = ((cfg0.win 13).blk t).view.read (Elt Ideal) (KOut m c) := by
  rw [Value.flushed13]
  funext j
  exact tile13 m c t j

/-! ## The blocks tile the arrays -/

/-- An index is in point t's result block iff each coordinate is in the block's range. -/
theorem mem_blk14 (t : Fin cfg0.N) (i : S8x192x128x128.Idx) :
    i ∈ ((cfg0.win 14).blk t).view.set ↔ ∀ a : Fin 4, win0_14.index t a * S1x24x128x128.size a ≤ (i a).val
      ∧ (i a).val < win0_14.index t a * S1x24x128x128.size a + S1x24x128x128.size a := by
  show i ∈ ((View.whole main_v20_1).slice (win0_14.rect t)).set ↔ _
  rw [View.set_slice_whole, Rect.mem_set_unit]
  exact Iff.rfl

theorem mem_blk13 (t : Fin cfg0.N) (i : S8x192x128x128.Idx) :
    i ∈ ((cfg0.win 13).blk t).view.set ↔ ∀ a : Fin 4, win0_13.index t a * S1x24x128x128.size a ≤ (i a).val
      ∧ (i a).val < win0_13.index t a * S1x24x128x128.size a + S1x24x128x128.size a := by
  show i ∈ ((View.whole main_v20_0).slice (win0_13.rect t)).set ↔ _
  rw [View.set_slice_whole, Rect.mem_set_unit]
  exact Iff.rfl

/-- Every index of a result array lies in the block of the point at its batch entry and channel block. -/
theorem cover14 (i : S8x192x128x128.Idx) :
    ∃ t : Fin cfg0.N, (cfg0.win 14).flush t = true ∧ i ∈ ((cfg0.win 14).blk t).view.set := by
  have h0 : (i 0).val < 8 := (i 0).isLt
  have h1 : (i 1).val < 192 := (i 1).isLt
  have h2 : (i 2).val < 128 := (i 2).isLt
  have h3 : (i 3).val < 128 := (i 3).isLt
  obtain ⟨t, ht⟩ := onto14 ⟨(i 0).val, h0⟩ ⟨(i 1).val / 24, by omega⟩
  have q0 : win0_14.index t (0 : Fin 4) = (i 0).val := congrFun ht 0
  have q1 : win0_14.index t (1 : Fin 4) = (i 1).val / 24 := congrFun ht 1
  have q2 : win0_14.index t (2 : Fin 4) = 0 := congrFun ht 2
  have q3 : win0_14.index t (3 : Fin 4) = 0 := congrFun ht 3
  refine ⟨t, flush0_14 t, ?_⟩
  rw [mem_blk14]
  intro a
  match a with
  | ⟨0, _⟩ => show win0_14.index t (0 : Fin 4) * 1 ≤ (i 0).val ∧ (i 0).val < win0_14.index t (0 : Fin 4) * 1 + 1; omega
  | ⟨1, _⟩ => show win0_14.index t (1 : Fin 4) * 24 ≤ (i 1).val ∧ (i 1).val < win0_14.index t (1 : Fin 4) * 24 + 24; omega
  | ⟨2, _⟩ => show win0_14.index t (2 : Fin 4) * 128 ≤ (i 2).val ∧ (i 2).val < win0_14.index t (2 : Fin 4) * 128 + 128; omega
  | ⟨3, _⟩ => show win0_14.index t (3 : Fin 4) * 128 ≤ (i 3).val ∧ (i 3).val < win0_14.index t (3 : Fin 4) * 128 + 128; omega

theorem cover13 (i : S8x192x128x128.Idx) :
    ∃ t : Fin cfg0.N, (cfg0.win 13).flush t = true ∧ i ∈ ((cfg0.win 13).blk t).view.set := by
  have h0 : (i 0).val < 8 := (i 0).isLt
  have h1 : (i 1).val < 192 := (i 1).isLt
  have h2 : (i 2).val < 128 := (i 2).isLt
  have h3 : (i 3).val < 128 := (i 3).isLt
  obtain ⟨t, ht⟩ := onto14 ⟨(i 0).val, h0⟩ ⟨(i 1).val / 24, by omega⟩
  have e := idxR13 t
  have q0 : win0_13.index t (0 : Fin 4) = (i 0).val := (congrFun e 0).trans (congrFun ht 0)
  have q1 : win0_13.index t (1 : Fin 4) = (i 1).val / 24 := (congrFun e 1).trans (congrFun ht 1)
  have q2 : win0_13.index t (2 : Fin 4) = 0 := congrFun e 2
  have q3 : win0_13.index t (3 : Fin 4) = 0 := congrFun e 3
  refine ⟨t, flush0_13 t, ?_⟩
  rw [mem_blk13]
  intro a
  match a with
  | ⟨0, _⟩ => show win0_13.index t (0 : Fin 4) * 1 ≤ (i 0).val ∧ (i 0).val < win0_13.index t (0 : Fin 4) * 1 + 1; omega
  | ⟨1, _⟩ => show win0_13.index t (1 : Fin 4) * 24 ≤ (i 1).val ∧ (i 1).val < win0_13.index t (1 : Fin 4) * 24 + 24; omega
  | ⟨2, _⟩ => show win0_13.index t (2 : Fin 4) * 128 ≤ (i 2).val ∧ (i 2).val < win0_13.index t (2 : Fin 4) * 128 + 128; omega
  | ⟨3, _⟩ => show win0_13.index t (3 : Fin 4) * 128 ≤ (i 3).val ∧ (i 3).val < win0_13.index t (3 : Fin 4) * 128 + 128; omega

/-- THE LIKELIHOOD ARRAY after the run. -/
theorem final14 (c : Dev nD) : (dats m 0 c).arrAt 14 cfg0.N = KLik m c :=
  (dats m 0 c).arrAt_eq_of_cover 14 (KLik m c) (fun t _ => flushed14_eq m c t) cover14

/-- THE QUANTISED ARRAY after the run. -/
theorem final13 (c : Dev nD) : (dats m 0 c).arrAt 13 cfg0.N = KOut m c :=
  (dats m 0 c).arrAt_eq_of_cover 13 (KOut m c) (fun t _ => flushed13_eq m c t) cover13

/-! ## The run, read -/

/-- Every weakly fair execution of the program ends with the two result arrays at the two functions of
    the arguments, and the arguments unchanged. -/
theorem run : θ_run defs (onTc (τ := τ) (main (F := Ideal))) ⟨m, fun _ => 0, ρ⟩ fun r => ∀ c : Dev nD,
      r.2.mem ((c : Thread nD τ).loc main_v20_0) = KOut m c
      ∧ r.2.mem ((c : Thread nD τ).loc main_v20_1) = KLik m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final13 m c), (h c).2.1.trans (final14 m c), (h c).2.2⟩)
    (Value.run_blocks m ρ)

end Cert.KernelIdeal.KValue

end
-- ==== Proof.RefValue.lean ====
/-
  The reference program computes the two arrays of the specification, index by index, on the extended reals.

  An entry x[b, c, h, w] sits at position n = b * 16384 + h * 128 + w of channel c's flattened row; both
  results are read back from that position.  At (c, 0, n) the program holds
      q = roundeven (x - mu) + mu,              mu = quantiles[c, 0, 1] the channel's median,
  and runs channel c's network 1 -> 3 -> 3 -> 3 -> 1 twice, at q - 1/2 and at q + 1/2.  A layer is a contraction
  over the layer's inputs of the softplus of the matrix with the activations below, the bias added AFTERWARDS,
  and (first three layers) the gated activation p + tanh (factor) * tanh p.  A sum over one index is its term and
  (sum over three of a k) + b = b + a 0 + a 1 + a 2, so each layer is the specification's layer of the layer
  below, and the last one the cumulative logit.  With lo and up the two logits and s = - sign (lo + up) the
  program spells the two logistic values as 1 / (1 + exp (- (s * up))) and 1 / (1 + exp (- (s * lo))), the
  literal 1.0 being the real number 1, takes the absolute value of their difference and the maximum with the
  bound: the specification's likelihood of q.
-/
import proofs.«114511_j77747497992520_1_alg».proof.Proof.Gen.ReferenceIdeal.Read
import proofs.«114511_j77747497992520_1_alg».proof.Proof.Cdf
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

variable (x0 : (⟨S8x192x128x128, .f32⟩ : BufTy).Contents (Elt Ideal))
  (x1 x2 x3 : (⟨S192x3x1, .f32⟩ : BufTy).Contents (Elt Ideal)) (x4 : (⟨S192x3x3, .f32⟩ : BufTy).Contents (Elt Ideal))
  (x5 x6 : (⟨S192x3x1, .f32⟩ : BufTy).Contents (Elt Ideal)) (x7 : (⟨S192x3x3, .f32⟩ : BufTy).Contents (Elt Ideal))
  (x8 x9 : (⟨S192x3x1, .f32⟩ : BufTy).Contents (Elt Ideal)) (x10 : (⟨S192x1x3, .f32⟩ : BufTy).Contents (Elt Ideal))
  (x11 : (⟨S192x1x1, .f32⟩ : BufTy).Contents (Elt Ideal)) (x12 : (⟨S192x1x3, .f32⟩ : BufTy).Contents (Elt Ideal))

/-! ## The flattened position of an entry, and the layout operations' index arithmetic -/

/-- The position of (b, h, w) in a channel's flattened row: b * 16384 + h * 128 + w. -/
def flat (b : Fin 8) (h w : Fin 128) : Fin 131072 :=
  ⟨b.val * 16384 + h.val * 128 + w.val, by have := b.isLt; have := h.isLt; have := w.isLt; omega⟩

/-- Reading the flattened, channel-first array at (c, 0, n), n the position of (b, h, w), reads the argument at
    (b, c, h, w): n / 16384 % 8 = b, n / 128 % 128 = h, n % 128 = w, and the channel's offset c * 131072 drops out. -/
theorem idx_v1_v0 (b : Fin 8) (c : Fin 192) (h w : Fin 128) :
    idx_main_v0 (idx_main_v1 (ix3 c 0 (flat b h w))) = ix4 b c h w := by
  have hb := b.isLt; have hc := c.isLt; have hh := h.isLt; have hw := w.isLt
  funext a
  match a with
  | ⟨0, _⟩ =>
    exact Fin.ext (by
      show ((c.val * 1 + 0) * 131072 + (b.val * 16384 + h.val * 128 + w.val)) / 16384 % 8 = b.val
      omega)
  | ⟨1, _⟩ =>
    exact Fin.ext (by
      show ((c.val * 1 + 0) * 131072 + (b.val * 16384 + h.val * 128 + w.val)) / 131072 = c.val
      omega)
  | ⟨2, _⟩ =>
    exact Fin.ext (by
      show ((c.val * 1 + 0) * 131072 + (b.val * 16384 + h.val * 128 + w.val)) / 128 % 128 = h.val
      omega)
  | ⟨3, _⟩ =>
    exact Fin.ext (by
      show ((c.val * 1 + 0) * 131072 + (b.val * 16384 + h.val * 128 + w.val)) % 128 = w.val
      omega)

/-- Back again: the result at (b, c, h, w) is read from (c, 0, n): ((c * 8 + b) * 128 + h) * 128 + w is
    c * 131072 + n with n below 131072. -/
theorem idx_v96_v95 (b : Fin 8) (c : Fin 192) (h w : Fin 128) :
    idx_main_v95 (idx_main_v96 (ix4 b c h w)) = ix3 c 0 (flat b h w) := by
  have hb := b.isLt; have hc := c.isLt; have hh := h.isLt; have hw := w.isLt
  funext a
  match a with
  | ⟨0, _⟩ =>
    exact Fin.ext (by
      show (((c.val * 8 + b.val) * 128 + h.val) * 128 + w.val) / 131072 = c.val
      omega)
  | ⟨1, _⟩ => rfl
  | ⟨2, _⟩ =>
    exact Fin.ext (by
      show (((c.val * 8 + b.val) * 128 + h.val) * 128 + w.val) % 131072 = b.val * 16384 + h.val * 128 + w.val
      omega)

theorem idx_v98_v97 (b : Fin 8) (c : Fin 192) (h w : Fin 128) :
    idx_main_v97 (idx_main_v98 (ix4 b c h w)) = ix3 c 0 (flat b h w) := by
  have hb := b.isLt; have hc := c.isLt; have hh := h.isLt; have hw := w.isLt
  funext a
  match a with
  | ⟨0, _⟩ =>
    exact Fin.ext (by
      show (((c.val * 8 + b.val) * 128 + h.val) * 128 + w.val) / 131072 = c.val
      omega)
  | ⟨1, _⟩ => rfl
  | ⟨2, _⟩ =>
    exact Fin.ext (by
      show (((c.val * 8 + b.val) * 128 + h.val) * 128 + w.val) % 131072 = b.val * 16384 + h.val * 128 + w.val
      omega)

/-- The median's place: the slice [0:192, 0:1, 1:2] of the quantiles, repeated along the flattened axis. -/
theorem idx_v3_v2 (c : Fin 192) (n : Fin 131072) : idx_main_v2 (idx_main_v3 (ix3 c 0 n)) = ix3 c 0 1 := by
  funext a; match a with | ⟨0, _⟩ => rfl | ⟨1, _⟩ => rfl | ⟨2, _⟩ => rfl
theorem idx_v6_v2 (c : Fin 192) (n : Fin 131072) : idx_main_v2 (idx_main_v6 (ix3 c 0 n)) = ix3 c 0 1 := by
  funext a; match a with | ⟨0, _⟩ => rfl | ⟨1, _⟩ => rfl | ⟨2, _⟩ => rfl

/-! ## The quantised entry -/

/-- The flattened, channel-first array at (c, 0, n) is the argument at (b, c, h, w). -/
theorem entry_at (b : Fin 8) (c : Fin 192) (h w : Fin 128) :
    val_main_v1 (F := Ideal) x0 (ix3 c 0 (flat b h w)) = x0 (ix4 b c h w) := by
  rw [val_main_v1_apply, val_main_v0_apply, idx_v1_v0]

/-- The subtracted median at (c, 0, n) is channel c's median. -/
theorem median_v3 (c : Fin 192) (n : Fin 131072) : val_main_v3 (F := Ideal) x12 (ix3 c 0 n) = Cdf.median x12 c := by
  rw [val_main_v3_apply, val_main_v2_apply, idx_v3_v2]
  rfl

/-- The median added back at (c, 0, n) is channel c's median. -/
theorem median_v6 (c : Fin 192) (n : Fin 131072) : val_main_v6 (F := Ideal) x12 (ix3 c 0 n) = Cdf.median x12 c := by
  rw [val_main_v6_apply, val_main_v2_apply, idx_v6_v2]
  rfl

/-- The quantised entry: roundeven (x - mu) + mu. -/
theorem quant_at (b : Fin 8) (c : Fin 192) (h w : Fin 128) :
    val_main_v7 (F := Ideal) x0 x12 (ix3 c 0 (flat b h w)) = Cdf.outAt x0 x12 b c h w := by
  rw [val_main_v7_apply, val_main_v5_apply, val_main_v4_apply, entry_at, median_v3, median_v6]
  rfl

/-- The network's lower argument: the quantised entry minus one half. -/
theorem lower_arg (j : S192x1x131072.Idx) : val_main_v9 (F := Ideal) x0 x12 j = val_main_v7 (F := Ideal) x0 x12 j - Cdf.half := by
  rw [val_main_v9_apply, val_main_v8_apply, val_main_cst_apply]
  rfl

/-- The network's upper argument: the quantised entry plus one half. -/
theorem upper_arg (j : S192x1x131072.Idx) : val_main_v42 (F := Ideal) x0 x12 j = val_main_v7 (F := Ideal) x0 x12 j + Cdf.half := by
  rw [val_main_v42_apply, val_main_v41_apply, val_main_cst_0_apply]
  rfl

/-! ## Channel c's network, with the weights the softplus of the matrices and the gates the tanh of the factors -/

/-- The specification's network of channel c, read out of the raw parameter arrays. -/
abbrev net (c : Fin 192) : Cdf.Net :=
  Cdf.netAt (fun i => Cdf.softplus (x1 i)) x2 (fun i => Ideal.tanh (x3 i))
    (fun i => Cdf.softplus (x4 i)) x5 (fun i => Ideal.tanh (x6 i))
    (fun i => Cdf.softplus (x7 i)) x8 (fun i => Ideal.tanh (x9 i))
    (fun i => Cdf.softplus (x10 i)) x11 c

/-! ## The network at the lower argument -/

/-- The first layer's weights: the stage is the guarded softplus of the matrix entry, operation by operation. -/
theorem sp_v10 (j : S192x3x1.Idx) : val_main_v10 (F := Ideal) x1 j = Cdf.softplus (x1 j) := by
  simp only [val_main_v10_apply, val_main_call1_v4_apply, val_main_call1_v6_apply, val_main_call1_v11_apply, val_main_call1_v1_apply, val_main_call1_v10_apply,
    val_main_call1_v9_apply, val_main_call1_v8_apply, val_main_call1_v7_apply, val_main_call1_v3_apply, val_main_call1_v0_apply, val_main_call1_v2_apply, val_main_call1_v5_apply,
    val_main_call1_cst_apply]
  rfl

/-- The second layer's weights, likewise. -/
theorem sp_v19 (j : S192x3x3.Idx) : val_main_v19 (F := Ideal) x4 j = Cdf.softplus (x4 j) := by
  simp only [val_main_v19_apply, val_main_call2_v4_apply, val_main_call2_v6_apply, val_main_call2_v11_apply, val_main_call2_v1_apply, val_main_call2_v10_apply,
    val_main_call2_v9_apply, val_main_call2_v8_apply, val_main_call2_v7_apply, val_main_call2_v3_apply, val_main_call2_v0_apply, val_main_call2_v2_apply, val_main_call2_v5_apply,
    val_main_call2_cst_apply]
  rfl

/-- The third layer's weights, likewise. -/
theorem sp_v28 (j : S192x3x3.Idx) : val_main_v28 (F := Ideal) x7 j = Cdf.softplus (x7 j) := by
  simp only [val_main_v28_apply, val_main_call3_v4_apply, val_main_call3_v6_apply, val_main_call3_v11_apply, val_main_call3_v1_apply, val_main_call3_v10_apply,
    val_main_call3_v9_apply, val_main_call3_v8_apply, val_main_call3_v7_apply, val_main_call3_v3_apply, val_main_call3_v0_apply, val_main_call3_v2_apply, val_main_call3_v5_apply,
    val_main_call3_cst_apply]
  rfl

/-- The last layer's weights, likewise. -/
theorem sp_v37 (j : S192x1x3.Idx) : val_main_v37 (F := Ideal) x10 j = Cdf.softplus (x10 j) := by
  simp only [val_main_v37_apply, val_main_call4_v4_apply, val_main_call4_v6_apply, val_main_call4_v11_apply, val_main_call4_v1_apply, val_main_call4_v10_apply,
    val_main_call4_v9_apply, val_main_call4_v8_apply, val_main_call4_v7_apply, val_main_call4_v3_apply, val_main_call4_v0_apply, val_main_call4_v2_apply, val_main_call4_v5_apply,
    val_main_call4_cst_apply]
  rfl

theorem lidx_v11 (c : Fin 192) (i : Fin 3) (n : Fin 131072) (k : Fin 1) :
    lidx_main_v11 (ix3 c i n) k = ix3 c i k := by
  funext a; match a with | ⟨0, _⟩ => rfl | ⟨1, _⟩ => rfl | ⟨2, _⟩ => rfl
theorem ridx_v11 (c : Fin 192) (i : Fin 3) (n : Fin 131072) (k : Fin 1) :
    ridx_main_v11 (ix3 c i n) k = ix3 c k n := by
  funext a; match a with | ⟨0, _⟩ => rfl | ⟨1, _⟩ => rfl | ⟨2, _⟩ => rfl
theorem idx_v12 (c : Fin 192) (i : Fin 3) (n : Fin 131072) : idx_main_v12 (ix3 c i n) = ix3 c i 0 := by
  funext a; match a with | ⟨0, _⟩ => rfl | ⟨1, _⟩ => rfl | ⟨2, _⟩ => rfl
theorem idx_v16 (c : Fin 192) (i : Fin 3) (n : Fin 131072) : idx_main_v16 (ix3 c i n) = ix3 c i 0 := by
  funext a; match a with | ⟨0, _⟩ => rfl | ⟨1, _⟩ => rfl | ⟨2, _⟩ => rfl

/-- The bias, repeated along the flattened axis, read at an entry. -/
theorem bias_v12 (c : Fin 192) (i : Fin 3) (n : Fin 131072) : val_main_v12 (F := Ideal) x2 (ix3 c i n) = x2 (ix3 c i 0) := by
  rw [val_main_v12_apply, idx_v12]

/-- The gate, repeated along the flattened axis, read at an entry: the tanh of the factor. -/
theorem gate_v16 (c : Fin 192) (i : Fin 3) (n : Fin 131072) :
    val_main_v16 (F := Ideal) x3 (ix3 c i n) = Ideal.tanh (x3 (ix3 c i 0)) := by
  rw [val_main_v16_apply, idx_v16]
  rfl

theorem lidx_v20 (c : Fin 192) (i : Fin 3) (n : Fin 131072) (k : Fin 3) :
    lidx_main_v20 (ix3 c i n) k = ix3 c i k := by
  funext a; match a with | ⟨0, _⟩ => rfl | ⟨1, _⟩ => rfl | ⟨2, _⟩ => rfl
theorem ridx_v20 (c : Fin 192) (i : Fin 3) (n : Fin 131072) (k : Fin 3) :
    ridx_main_v20 (ix3 c i n) k = ix3 c k n := by
  funext a; match a with | ⟨0, _⟩ => rfl | ⟨1, _⟩ => rfl | ⟨2, _⟩ => rfl
theorem idx_v21 (c : Fin 192) (i : Fin 3) (n : Fin 131072) : idx_main_v21 (ix3 c i n) = ix3 c i 0 := by
  funext a; match a with | ⟨0, _⟩ => rfl | ⟨1, _⟩ => rfl | ⟨2, _⟩ => rfl
theorem idx_v25 (c : Fin 192) (i : Fin 3) (n : Fin 131072) : idx_main_v25 (ix3 c i n) = ix3 c i 0 := by
  funext a; match a with | ⟨0, _⟩ => rfl | ⟨1, _⟩ => rfl | ⟨2, _⟩ => rfl

/-- The bias, repeated along the flattened axis, read at an entry. -/
theorem bias_v21 (c : Fin 192) (i : Fin 3) (n : Fin 131072) : val_main_v21 (F := Ideal) x5 (ix3 c i n) = x5 (ix3 c i 0) := by
  rw [val_main_v21_apply, idx_v21]

/-- The gate, repeated along the flattened axis, read at an entry: the tanh of the factor. -/
theorem gate_v25 (c : Fin 192) (i : Fin 3) (n : Fin 131072) :
    val_main_v25 (F := Ideal) x6 (ix3 c i n) = Ideal.tanh (x6 (ix3 c i 0)) := by
  rw [val_main_v25_apply, idx_v25]
  rfl

theorem lidx_v29 (c : Fin 192) (i : Fin 3) (n : Fin 131072) (k : Fin 3) :
    lidx_main_v29 (ix3 c i n) k = ix3 c i k := by
  funext a; match a with | ⟨0, _⟩ => rfl | ⟨1, _⟩ => rfl | ⟨2, _⟩ => rfl
theorem ridx_v29 (c : Fin 192) (i : Fin 3) (n : Fin 131072) (k : Fin 3) :
    ridx_main_v29 (ix3 c i n) k = ix3 c k n := by
  funext a; match a with | ⟨0, _⟩ => rfl | ⟨1, _⟩ => rfl | ⟨2, _⟩ => rfl
theorem idx_v30 (c : Fin 192) (i : Fin 3) (n : Fin 131072) : idx_main_v30 (ix3 c i n) = ix3 c i 0 := by
  funext a; match a with | ⟨0, _⟩ => rfl | ⟨1, _⟩ => rfl | ⟨2, _⟩ => rfl
theorem idx_v34 (c : Fin 192) (i : Fin 3) (n : Fin 131072) : idx_main_v34 (ix3 c i n) = ix3 c i 0 := by
  funext a; match a with | ⟨0, _⟩ => rfl | ⟨1, _⟩ => rfl | ⟨2, _⟩ => rfl

/-- The bias, repeated along the flattened axis, read at an entry. -/
theorem bias_v30 (c : Fin 192) (i : Fin 3) (n : Fin 131072) : val_main_v30 (F := Ideal) x8 (ix3 c i n) = x8 (ix3 c i 0) := by
  rw [val_main_v30_apply, idx_v30]

/-- The gate, repeated along the flattened axis, read at an entry: the tanh of the factor. -/
theorem gate_v34 (c : Fin 192) (i : Fin 3) (n : Fin 131072) :
    val_main_v34 (F := Ideal) x9 (ix3 c i n) = Ideal.tanh (x9 (ix3 c i 0)) := by
  rw [val_main_v34_apply, idx_v34]
  rfl

theorem lidx_v38 (c : Fin 192) (n : Fin 131072) (k : Fin 3) :
    lidx_main_v38 (ix3 c 0 n) k = ix3 c 0 k := by
  funext a; match a with | ⟨0, _⟩ => rfl | ⟨1, _⟩ => rfl | ⟨2, _⟩ => rfl
theorem ridx_v38 (c : Fin 192) (n : Fin 131072) (k : Fin 3) :
    ridx_main_v38 (ix3 c 0 n) k = ix3 c k n := by
  funext a; match a with | ⟨0, _⟩ => rfl | ⟨1, _⟩ => rfl | ⟨2, _⟩ => rfl
theorem idx_v39 (c : Fin 192) (n : Fin 131072) : idx_main_v39 (ix3 c 0 n) = ix3 c 0 0 := by
  funext a; match a with | ⟨0, _⟩ => rfl | ⟨1, _⟩ => rfl | ⟨2, _⟩ => rfl

/-- The last bias, repeated along the flattened axis, read at an entry. -/
theorem bias_v39 (c : Fin 192) (n : Fin 131072) : val_main_v39 (F := Ideal) x11 (ix3 c 0 n) = x11 (ix3 c 0 0) := by
  rw [val_main_v39_apply, idx_v39]

/-- The first contraction runs over one input: its sum is the one product. -/
theorem dot_v11 (c : Fin 192) (i : Fin 3) (n : Fin 131072) :
    val_main_v11 (F := Ideal) x0 x1 x12 (ix3 c i n) = val_main_v10 (F := Ideal) x1 (ix3 c i 0) * val_main_v9 (F := Ideal) x0 x12 (ix3 c 0 n) := by
  rw [val_main_v11_apply, Cdf.sum1, lidx_v11, ridx_v11]

/-- The second contraction: the sum over the three units below. -/
theorem dot_v20 (c : Fin 192) (i : Fin 3) (n : Fin 131072) :
    val_main_v20 (F := Ideal) x0 x1 x2 x3 x4 x12 (ix3 c i n) = ∑ k : Fin 3, val_main_v19 (F := Ideal) x4 (ix3 c i k) * val_main_v18 (F := Ideal) x0 x1 x2 x3 x12 (ix3 c k n) := by
  rw [val_main_v20_apply]
  refine Finset.sum_congr rfl fun k _ => ?_
  rw [lidx_v20, ridx_v20]

/-- The third contraction, likewise. -/
theorem dot_v29 (c : Fin 192) (i : Fin 3) (n : Fin 131072) :
    val_main_v29 (F := Ideal) x0 x1 x2 x3 x4 x5 x6 x7 x12 (ix3 c i n) = ∑ k : Fin 3, val_main_v28 (F := Ideal) x7 (ix3 c i k) * val_main_v27 (F := Ideal) x0 x1 x2 x3 x4 x5 x6 x12 (ix3 c k n) := by
  rw [val_main_v29_apply]
  refine Finset.sum_congr rfl fun k _ => ?_
  rw [lidx_v29, ridx_v29]

/-- The last contraction, likewise, into the one output unit. -/
theorem dot_v38 (c : Fin 192) (n : Fin 131072) :
    val_main_v38 (F := Ideal) x0 x1 x2 x3 x4 x5 x6 x7 x8 x9 x10 x12 (ix3 c 0 n) = ∑ k : Fin 3, val_main_v37 (F := Ideal) x10 (ix3 c 0 k) * val_main_v36 (F := Ideal) x0 x1 x2 x3 x4 x5 x6 x7 x8 x9 x12 (ix3 c k n) := by
  rw [val_main_v38_apply]
  refine Finset.sum_congr rfl fun k _ => ?_
  rw [lidx_v38, ridx_v38]

/-- First hidden layer at (c, i, n): w * v + b, then the gated activation; v the network's argument at (c, 0, n). -/
theorem h0_lo (c : Fin 192) (i : Fin 3) (n : Fin 131072) :
    val_main_v18 (F := Ideal) x0 x1 x2 x3 x12 (ix3 c i n) = (net x1 x2 x3 x4 x5 x6 x7 x8 x9 x10 x11 c).h0 (val_main_v9 (F := Ideal) x0 x12 (ix3 c 0 n)) i := by
  rw [val_main_v18_apply, val_main_v17_apply, val_main_v15_apply, val_main_v13_apply, dot_v11, bias_v12, gate_v16,
    sp_v10]
  rfl

/-- Second hidden layer at (c, i, n): the bias added after the three products summed is the bias added first. -/
theorem h1_lo (c : Fin 192) (i : Fin 3) (n : Fin 131072) :
    val_main_v27 (F := Ideal) x0 x1 x2 x3 x4 x5 x6 x12 (ix3 c i n) = (net x1 x2 x3 x4 x5 x6 x7 x8 x9 x10 x11 c).h1 (val_main_v9 (F := Ideal) x0 x12 (ix3 c 0 n)) i := by
  simp only [val_main_v27_apply, val_main_v26_apply, val_main_v24_apply, val_main_v22_apply, dot_v20, bias_v21, gate_v25,
    sp_v19, h0_lo x0 x1 x2 x3 x4 x5 x6 x7 x8 x9 x10 x11 x12, Ideal.addf_def, Cdf.sum3_add]
  rfl

/-- Third hidden layer at (c, i, n), likewise over the second. -/
theorem h2_lo (c : Fin 192) (i : Fin 3) (n : Fin 131072) :
    val_main_v36 (F := Ideal) x0 x1 x2 x3 x4 x5 x6 x7 x8 x9 x12 (ix3 c i n) = (net x1 x2 x3 x4 x5 x6 x7 x8 x9 x10 x11 c).h2 (val_main_v9 (F := Ideal) x0 x12 (ix3 c 0 n)) i := by
  simp only [val_main_v36_apply, val_main_v35_apply, val_main_v33_apply, val_main_v31_apply, dot_v29, bias_v30, gate_v34,
    sp_v28, h1_lo x0 x1 x2 x3 x4 x5 x6 x7 x8 x9 x10 x11 x12, Ideal.addf_def, Cdf.sum3_add]
  rfl

/-- The cumulative logit at (c, 0, n): the last layer has one unit and no gate. -/
theorem logit_lo (c : Fin 192) (n : Fin 131072) :
    val_main_v40 (F := Ideal) x0 x1 x2 x3 x4 x5 x6 x7 x8 x9 x10 x11 x12 (ix3 c 0 n) = (net x1 x2 x3 x4 x5 x6 x7 x8 x9 x10 x11 c).logit (val_main_v9 (F := Ideal) x0 x12 (ix3 c 0 n)) := by
  simp only [val_main_v40_apply, dot_v38, bias_v39, sp_v37, h2_lo x0 x1 x2 x3 x4 x5 x6 x7 x8 x9 x10 x11 x12, Ideal.addf_def, Cdf.sum3_add]
  rfl

/-! ## The network at the upper argument -/

/-- The first layer's weights: the stage is the guarded softplus of the matrix entry, operation by operation. -/
theorem sp_v43 (j : S192x3x1.Idx) : val_main_v43 (F := Ideal) x1 j = Cdf.softplus (x1 j) := by
  simp only [val_main_v43_apply, val_main_call5_v4_apply, val_main_call5_v6_apply, val_main_call5_v11_apply, val_main_call5_v1_apply, val_main_call5_v10_apply,
    val_main_call5_v9_apply, val_main_call5_v8_apply, val_main_call5_v7_apply, val_main_call5_v3_apply, val_main_call5_v0_apply, val_main_call5_v2_apply, val_main_call5_v5_apply,
    val_main_call5_cst_apply]
  rfl

/-- The second layer's weights, likewise. -/
theorem sp_v52 (j : S192x3x3.Idx) : val_main_v52 (F := Ideal) x4 j = Cdf.softplus (x4 j) := by
  simp only [val_main_v52_apply, val_main_call6_v4_apply, val_main_call6_v6_apply, val_main_call6_v11_apply, val_main_call6_v1_apply, val_main_call6_v10_apply,
    val_main_call6_v9_apply, val_main_call6_v8_apply, val_main_call6_v7_apply, val_main_call6_v3_apply, val_main_call6_v0_apply, val_main_call6_v2_apply, val_main_call6_v5_apply,
    val_main_call6_cst_apply]
  rfl

/-- The third layer's weights, likewise. -/
theorem sp_v61 (j : S192x3x3.Idx) : val_main_v61 (F := Ideal) x7 j = Cdf.softplus (x7 j) := by
  simp only [val_main_v61_apply, val_main_call7_v4_apply, val_main_call7_v6_apply, val_main_call7_v11_apply, val_main_call7_v1_apply, val_main_call7_v10_apply,
    val_main_call7_v9_apply, val_main_call7_v8_apply, val_main_call7_v7_apply, val_main_call7_v3_apply, val_main_call7_v0_apply, val_main_call7_v2_apply, val_main_call7_v5_apply,
    val_main_call7_cst_apply]
  rfl

/-- The last layer's weights, likewise. -/
theorem sp_v70 (j : S192x1x3.Idx) : val_main_v70 (F := Ideal) x10 j = Cdf.softplus (x10 j) := by
  simp only [val_main_v70_apply, val_main_call8_v4_apply, val_main_call8_v6_apply, val_main_call8_v11_apply, val_main_call8_v1_apply, val_main_call8_v10_apply,
    val_main_call8_v9_apply, val_main_call8_v8_apply, val_main_call8_v7_apply, val_main_call8_v3_apply, val_main_call8_v0_apply, val_main_call8_v2_apply, val_main_call8_v5_apply,
    val_main_call8_cst_apply]
  rfl

theorem lidx_v44 (c : Fin 192) (i : Fin 3) (n : Fin 131072) (k : Fin 1) :
    lidx_main_v44 (ix3 c i n) k = ix3 c i k := by
  funext a; match a with | ⟨0, _⟩ => rfl | ⟨1, _⟩ => rfl | ⟨2, _⟩ => rfl
theorem ridx_v44 (c : Fin 192) (i : Fin 3) (n : Fin 131072) (k : Fin 1) :
    ridx_main_v44 (ix3 c i n) k = ix3 c k n := by
  funext a; match a with | ⟨0, _⟩ => rfl | ⟨1, _⟩ => rfl | ⟨2, _⟩ => rfl
theorem idx_v45 (c : Fin 192) (i : Fin 3) (n : Fin 131072) : idx_main_v45 (ix3 c i n) = ix3 c i 0 := by
  funext a; match a with | ⟨0, _⟩ => rfl | ⟨1, _⟩ => rfl | ⟨2, _⟩ => rfl
theorem idx_v49 (c : Fin 192) (i : Fin 3) (n : Fin 131072) : idx_main_v49 (ix3 c i n) = ix3 c i 0 := by
  funext a; match a with | ⟨0, _⟩ => rfl | ⟨1, _⟩ => rfl | ⟨2, _⟩ => rfl

/-- The bias, repeated along the flattened axis, read at an entry. -/
theorem bias_v45 (c : Fin 192) (i : Fin 3) (n : Fin 131072) : val_main_v45 (F := Ideal) x2 (ix3 c i n) = x2 (ix3 c i 0) := by
  rw [val_main_v45_apply, idx_v45]

/-- The gate, repeated along the flattened axis, read at an entry: the tanh of the factor. -/
theorem gate_v49 (c : Fin 192) (i : Fin 3) (n : Fin 131072) :
    val_main_v49 (F := Ideal) x3 (ix3 c i n) = Ideal.tanh (x3 (ix3 c i 0)) := by
  rw [val_main_v49_apply, idx_v49]
  rfl

theorem lidx_v53 (c : Fin 192) (i : Fin 3) (n : Fin 131072) (k : Fin 3) :
    lidx_main_v53 (ix3 c i n) k = ix3 c i k := by
  funext a; match a with | ⟨0, _⟩ => rfl | ⟨1, _⟩ => rfl | ⟨2, _⟩ => rfl
theorem ridx_v53 (c : Fin 192) (i : Fin 3) (n : Fin 131072) (k : Fin 3) :
    ridx_main_v53 (ix3 c i n) k = ix3 c k n := by
  funext a; match a with | ⟨0, _⟩ => rfl | ⟨1, _⟩ => rfl | ⟨2, _⟩ => rfl
theorem idx_v54 (c : Fin 192) (i : Fin 3) (n : Fin 131072) : idx_main_v54 (ix3 c i n) = ix3 c i 0 := by
  funext a; match a with | ⟨0, _⟩ => rfl | ⟨1, _⟩ => rfl | ⟨2, _⟩ => rfl
theorem idx_v58 (c : Fin 192) (i : Fin 3) (n : Fin 131072) : idx_main_v58 (ix3 c i n) = ix3 c i 0 := by
  funext a; match a with | ⟨0, _⟩ => rfl | ⟨1, _⟩ => rfl | ⟨2, _⟩ => rfl

/-- The bias, repeated along the flattened axis, read at an entry. -/
theorem bias_v54 (c : Fin 192) (i : Fin 3) (n : Fin 131072) : val_main_v54 (F := Ideal) x5 (ix3 c i n) = x5 (ix3 c i 0) := by
  rw [val_main_v54_apply, idx_v54]

/-- The gate, repeated along the flattened axis, read at an entry: the tanh of the factor. -/
theorem gate_v58 (c : Fin 192) (i : Fin 3) (n : Fin 131072) :
    val_main_v58 (F := Ideal) x6 (ix3 c i n) = Ideal.tanh (x6 (ix3 c i 0)) := by
  rw [val_main_v58_apply, idx_v58]
  rfl

theorem lidx_v62 (c : Fin 192) (i : Fin 3) (n : Fin 131072) (k : Fin 3) :
    lidx_main_v62 (ix3 c i n) k = ix3 c i k := by
  funext a; match a with | ⟨0, _⟩ => rfl | ⟨1, _⟩ => rfl | ⟨2, _⟩ => rfl
theorem ridx_v62 (c : Fin 192) (i : Fin 3) (n : Fin 131072) (k : Fin 3) :
    ridx_main_v62 (ix3 c i n) k = ix3 c k n := by
  funext a; match a with | ⟨0, _⟩ => rfl | ⟨1, _⟩ => rfl | ⟨2, _⟩ => rfl
theorem idx_v63 (c : Fin 192) (i : Fin 3) (n : Fin 131072) : idx_main_v63 (ix3 c i n) = ix3 c i 0 := by
  funext a; match a with | ⟨0, _⟩ => rfl | ⟨1, _⟩ => rfl | ⟨2, _⟩ => rfl
theorem idx_v67 (c : Fin 192) (i : Fin 3) (n : Fin 131072) : idx_main_v67 (ix3 c i n) = ix3 c i 0 := by
  funext a; match a with | ⟨0, _⟩ => rfl | ⟨1, _⟩ => rfl | ⟨2, _⟩ => rfl

/-- The bias, repeated along the flattened axis, read at an entry. -/
theorem bias_v63 (c : Fin 192) (i : Fin 3) (n : Fin 131072) : val_main_v63 (F := Ideal) x8 (ix3 c i n) = x8 (ix3 c i 0) := by
  rw [val_main_v63_apply, idx_v63]

/-- The gate, repeated along the flattened axis, read at an entry: the tanh of the factor. -/
theorem gate_v67 (c : Fin 192) (i : Fin 3) (n : Fin 131072) :
    val_main_v67 (F := Ideal) x9 (ix3 c i n) = Ideal.tanh (x9 (ix3 c i 0)) := by
  rw [val_main_v67_apply, idx_v67]
  rfl

theorem lidx_v71 (c : Fin 192) (n : Fin 131072) (k : Fin 3) :
    lidx_main_v71 (ix3 c 0 n) k = ix3 c 0 k := by
  funext a; match a with | ⟨0, _⟩ => rfl | ⟨1, _⟩ => rfl | ⟨2, _⟩ => rfl
theorem ridx_v71 (c : Fin 192) (n : Fin 131072) (k : Fin 3) :
    ridx_main_v71 (ix3 c 0 n) k = ix3 c k n := by
  funext a; match a with | ⟨0, _⟩ => rfl | ⟨1, _⟩ => rfl | ⟨2, _⟩ => rfl
theorem idx_v72 (c : Fin 192) (n : Fin 131072) : idx_main_v72 (ix3 c 0 n) = ix3 c 0 0 := by
  funext a; match a with | ⟨0, _⟩ => rfl | ⟨1, _⟩ => rfl | ⟨2, _⟩ => rfl

/-- The last bias, repeated along the flattened axis, read at an entry. -/
theorem bias_v72 (c : Fin 192) (n : Fin 131072) : val_main_v72 (F := Ideal) x11 (ix3 c 0 n) = x11 (ix3 c 0 0) := by
  rw [val_main_v72_apply, idx_v72]

/-- The first contraction runs over one input: its sum is the one product. -/
theorem dot_v44 (c : Fin 192) (i : Fin 3) (n : Fin 131072) :
    val_main_v44 (F := Ideal) x0 x1 x12 (ix3 c i n) = val_main_v43 (F := Ideal) x1 (ix3 c i 0) * val_main_v42 (F := Ideal) x0 x12 (ix3 c 0 n) := by
  rw [val_main_v44_apply, Cdf.sum1, lidx_v44, ridx_v44]

/-- The second contraction: the sum over the three units below. -/
theorem dot_v53 (c : Fin 192) (i : Fin 3) (n : Fin 131072) :
    val_main_v53 (F := Ideal) x0 x1 x2 x3 x4 x12 (ix3 c i n) = ∑ k : Fin 3, val_main_v52 (F := Ideal) x4 (ix3 c i k) * val_main_v51 (F := Ideal) x0 x1 x2 x3 x12 (ix3 c k n) := by
  rw [val_main_v53_apply]
  refine Finset.sum_congr rfl fun k _ => ?_
  rw [lidx_v53, ridx_v53]

/-- The third contraction, likewise. -/
theorem dot_v62 (c : Fin 192) (i : Fin 3) (n : Fin 131072) :
    val_main_v62 (F := Ideal) x0 x1 x2 x3 x4 x5 x6 x7 x12 (ix3 c i n) = ∑ k : Fin 3, val_main_v61 (F := Ideal) x7 (ix3 c i k) * val_main_v60 (F := Ideal) x0 x1 x2 x3 x4 x5 x6 x12 (ix3 c k n) := by
  rw [val_main_v62_apply]
  refine Finset.sum_congr rfl fun k _ => ?_
  rw [lidx_v62, ridx_v62]

/-- The last contraction, likewise, into the one output unit. -/
theorem dot_v71 (c : Fin 192) (n : Fin 131072) :
    val_main_v71 (F := Ideal) x0 x1 x2 x3 x4 x5 x6 x7 x8 x9 x10 x12 (ix3 c 0 n) = ∑ k : Fin 3, val_main_v70 (F := Ideal) x10 (ix3 c 0 k) * val_main_v69 (F := Ideal) x0 x1 x2 x3 x4 x5 x6 x7 x8 x9 x12 (ix3 c k n) := by
  rw [val_main_v71_apply]
  refine Finset.sum_congr rfl fun k _ => ?_
  rw [lidx_v71, ridx_v71]

/-- First hidden layer at (c, i, n): w * v + b, then the gated activation; v the network's argument at (c, 0, n). -/
theorem h0_up (c : Fin 192) (i : Fin 3) (n : Fin 131072) :
    val_main_v51 (F := Ideal) x0 x1 x2 x3 x12 (ix3 c i n) = (net x1 x2 x3 x4 x5 x6 x7 x8 x9 x10 x11 c).h0 (val_main_v42 (F := Ideal) x0 x12 (ix3 c 0 n)) i := by
  rw [val_main_v51_apply, val_main_v50_apply, val_main_v48_apply, val_main_v46_apply, dot_v44, bias_v45, gate_v49,
    sp_v43]
  rfl

/-- Second hidden layer at (c, i, n): the bias added after the three products summed is the bias added first. -/
theorem h1_up (c : Fin 192) (i : Fin 3) (n : Fin 131072) :
    val_main_v60 (F := Ideal) x0 x1 x2 x3 x4 x5 x6 x12 (ix3 c i n) = (net x1 x2 x3 x4 x5 x6 x7 x8 x9 x10 x11 c).h1 (val_main_v42 (F := Ideal) x0 x12 (ix3 c 0 n)) i := by
  simp only [val_main_v60_apply, val_main_v59_apply, val_main_v57_apply, val_main_v55_apply, dot_v53, bias_v54, gate_v58,
    sp_v52, h0_up x0 x1 x2 x3 x4 x5 x6 x7 x8 x9 x10 x11 x12, Ideal.addf_def, Cdf.sum3_add]
  rfl

/-- Third hidden layer at (c, i, n), likewise over the second. -/
theorem h2_up (c : Fin 192) (i : Fin 3) (n : Fin 131072) :
    val_main_v69 (F := Ideal) x0 x1 x2 x3 x4 x5 x6 x7 x8 x9 x12 (ix3 c i n) = (net x1 x2 x3 x4 x5 x6 x7 x8 x9 x10 x11 c).h2 (val_main_v42 (F := Ideal) x0 x12 (ix3 c 0 n)) i := by
  simp only [val_main_v69_apply, val_main_v68_apply, val_main_v66_apply, val_main_v64_apply, dot_v62, bias_v63, gate_v67,
    sp_v61, h1_up x0 x1 x2 x3 x4 x5 x6 x7 x8 x9 x10 x11 x12, Ideal.addf_def, Cdf.sum3_add]
  rfl

/-- The cumulative logit at (c, 0, n): the last layer has one unit and no gate. -/
theorem logit_up (c : Fin 192) (n : Fin 131072) :
    val_main_v73 (F := Ideal) x0 x1 x2 x3 x4 x5 x6 x7 x8 x9 x10 x11 x12 (ix3 c 0 n) = (net x1 x2 x3 x4 x5 x6 x7 x8 x9 x10 x11 c).logit (val_main_v42 (F := Ideal) x0 x12 (ix3 c 0 n)) := by
  simp only [val_main_v73_apply, dot_v71, bias_v72, sp_v70, h2_up x0 x1 x2 x3 x4 x5 x6 x7 x8 x9 x10 x11 x12, Ideal.addf_def, Cdf.sum3_add]
  rfl

/-! ## The likelihood of an entry -/

/-- With lo, up the two logits and s = - sign (lo + up): the two quotients 1 / (1 + exp (- (s * up))) and
    1 / (1 + exp (- (s * lo))) are the logistic function at s * up and s * lo (the literal 1.0 is the number 1);
    the absolute value of their difference, bounded below, is the likelihood of the quantised entry. -/
theorem lik_at (c : Fin 192) (n : Fin 131072) :
    val_main_v94 (F := Ideal) x0 x1 x2 x3 x4 x5 x6 x7 x8 x9 x10 x11 x12 (ix3 c 0 n) = Cdf.lik (net x1 x2 x3 x4 x5 x6 x7 x8 x9 x10 x11 c) (val_main_v7 (F := Ideal) x0 x12 (ix3 c 0 n)) := by
  simp only [val_main_v94_apply, val_main_v93_apply, val_main_cst_5_apply, val_main_v92_apply, val_main_v91_apply,
    val_main_v90_apply, val_main_v89_apply, val_main_cst_4_apply, val_main_v88_apply, val_main_v87_apply, val_main_cst_3_apply,
    val_main_v86_apply, val_main_v85_apply, val_main_v84_apply,
    val_main_v83_apply, val_main_v82_apply, val_main_cst_2_apply, val_main_v81_apply, val_main_v80_apply, val_main_cst_1_apply,
    val_main_v79_apply, val_main_v78_apply, val_main_v77_apply, val_main_v76_apply, val_main_v75_apply, val_main_v74_apply,
    logit_lo x0 x1 x2 x3 x4 x5 x6 x7 x8 x9 x10 x11 x12, logit_up x0 x1 x2 x3 x4 x5 x6 x7 x8 x9 x10 x11 x12, lower_arg, upper_arg, Ideal.ofBits_def, Cdf.ofBits_one]
  rfl

/-! ## The two result arrays -/

/-- The quantised array the reference returns is the specification's. -/
theorem out_eq : val_main_v96 (F := Ideal) x0 x12 = Cdf.Gout x0 x12 := by
  funext i
  obtain ⟨b, c, h, w, rfl⟩ : ∃ (b : Fin 8) (c : Fin 192) (h w : Fin 128), i = ix4 b c h w :=
    ⟨i 0, i 1, i 2, i 3, eq_ix4 i⟩
  rw [val_main_v96_apply, val_main_v95_apply, idx_v96_v95, quant_at, Cdf.Gout_ix4]

/-- The likelihood array the reference returns is the specification's, as a function of the raw arguments. -/
theorem lik_eq : val_main_v98 (F := Ideal) x0 x1 x2 x3 x4 x5 x6 x7 x8 x9 x10 x11 x12 = Cdf.Lik x0 x1 x2 x3 x4 x5 x6 x7 x8 x9 x10 x11 x12 := by
  funext i
  obtain ⟨b, c, h, w, rfl⟩ : ∃ (b : Fin 8) (c : Fin 192) (h w : Fin 128), i = ix4 b c h w :=
    ⟨i 0, i 1, i 2, i 3, eq_ix4 i⟩
  rw [val_main_v98_apply, val_main_v97_apply, idx_v98_v97, lik_at, quant_at]
  rfl

end Cert.ReferenceIdeal.RefValue

end
-- ==== Proof.lean ====
/-
  The certificate's claims, assembled.

  Both idealized programs end with the same two arrays: the quantised array Gout and the
  likelihood array Lik of the specification (Proof/Cdf.lean), as functions of the argument
  arrays.  For the kernel this is the value of its run read off the frame run block by block
  (Proof/KernelValue.lean); for the reference it is its run's term read index by index
  (Proof/RefValue.lean).  Memories that agree on the arguments therefore give equal results.
  The frames are the generated frame runs (the reference has no kernel: its frame is its run with
  the results dropped), and the one rewrite of the idealization, the sign read off the sign bit
  as an order test against zero, is the rule's own statement.
-/
import proofs.«114511_j77747497992520_1_alg».proof.Defs
import proofs.«114511_j77747497992520_1_alg».proof.Proof.Gen.Kernel
import proofs.«114511_j77747497992520_1_alg».proof.Proof.Gen.Kernel.Skeleton
import proofs.«114511_j77747497992520_1_alg».proof.Proof.Gen.Kernel.Launch
import proofs.«114511_j77747497992520_1_alg».proof.Proof.Gen.Kernel.Points
import proofs.«114511_j77747497992520_1_alg».proof.Proof.Gen.Kernel.Frame
import proofs.«114511_j77747497992520_1_alg».proof.Proof.Gen.KernelIdeal
import proofs.«114511_j77747497992520_1_alg».proof.Proof.Gen.KernelIdeal.Skeleton
import proofs.«114511_j77747497992520_1_alg».proof.Proof.Gen.KernelIdeal.Launch
import proofs.«114511_j77747497992520_1_alg».proof.Proof.Gen.KernelIdeal.Points
import proofs.«114511_j77747497992520_1_alg».proof.Proof.Gen.KernelIdeal.Frame
import proofs.«114511_j77747497992520_1_alg».proof.Proof.Gen.ReferenceIdeal
import proofs.«114511_j77747497992520_1_alg».proof.Proof.Gen.Pre_finite_inputs
import proofs.«114511_j77747497992520_1_alg».proof.Proof.Gen.KernelIdeal.Value
import proofs.«114511_j77747497992520_1_alg».proof.Proof.Gen.ReferenceIdeal.Run
import proofs.«114511_j77747497992520_1_alg».proof.Proof.Gen.ReferenceIdeal.Read
import proofs.«114511_j77747497992520_1_alg».proof.Proof.KernelValue
import proofs.«114511_j77747497992520_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the two results dropped from the post. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: 1.0 carrying the sign bit of z is -1 or 1 as z < 0 or not. -/
theorem preserves : Cert.preserves_Kernel_KernelIdeal :=
  IdealRules.sign_bit.statement Cert.KernelIdeal.S24x128x128 .f32

/-- Run from memories that agree on the arguments, both programs end at the specification's two
    arrays of those arguments. -/
theorem algebraic : Cert.algebraic_KernelIdeal_ReferenceIdeal := by
  intro m ρ m' ρ' _ hagree
  refine ⟨fun c => Cert.KernelIdeal.KValue.KOut m c, fun c => Cert.KernelIdeal.KValue.KLik m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.RefValue.out_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg12))).trans ?_
    rw [(hagree c).1, (hagree c).2.2.2.2.2.2.2.2.2.2.2.2]
    rfl
  · refine (Cert.ReferenceIdeal.Read.val_main_v98_eq m' c).trans ?_
    refine (Cert.ReferenceIdeal.RefValue.lik_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    rfl

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
